-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v133)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v133) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S349184x80 : Shape := ⟨2, ![349184, 80]⟩
abbrev S349184x4 : Shape := ⟨2, ![349184, 4]⟩
abbrev S256x5x9x4 : Shape := ⟨4, ![256, 5, 9, 4]⟩
abbrev S256x5 : Shape := ⟨2, ![256, 5]⟩
abbrev S256 : Shape := ⟨1, ![256]⟩
abbrev S256x5x9 : Shape := ⟨3, ![256, 5, 9]⟩
abbrev S_ : Shape := ⟨0, ![]⟩

class Facts : Prop where
  bcast_S_S349184x80 : S_.BroadcastsInDim S349184x80 (![] : Fin 0 → Fin S349184x80.rank)
  reducesTo_S349184x80_S_d0_1 : S349184x80.ReducesTo [0, 1] S_
  h_S_ : 0 < S_.numel
  bcast_S_S349184x4 : S_.BroadcastsInDim S349184x4 (![] : Fin 0 → Fin S349184x4.rank)
  reducesTo_S349184x4_S_d0_1 : S349184x4.ReducesTo [0, 1] S_
  bcast_S_S256x5x9x4 : S_.BroadcastsInDim S256x5x9x4 (![] : Fin 0 → Fin S256x5x9x4.rank)
  reducesTo_S256x5x9x4_S_d0_1_2_3 : S256x5x9x4.ReducesTo [0, 1, 2, 3] S_

variable [Facts]

def fn_part1 {F : FTy → Type} [FloatOps F] (main_v13 : IVec S_ 1) (main_v16 : IVec S256x5x9x4 1) : IVec S_ 1 :=
  let main_c_5 : IVec S_ 1 := constantI S_ 1 1#1
  let main_v17 : IVec S_ 1 := (fun x v => Host.reduce IntOp.andi x v reducesTo_S256x5x9x4_S_d0_1_2_3 h_S_) main_v16 main_c_5
  let main_v18 : IVec S_ 1 := andi main_v13 main_v17
  main_v18

def fn {F : FTy → Type} [FloatOps F] (main_arg0 : FVec F S349184x80 .f32) (main_arg1 : FVec F S349184x4 .f32) (main_arg2 : FVec F S349184x80 .f32) (main_arg3 : FVec F S256x5x9x4 .f32) (main_arg4 : IVec S256x5 32) (main_arg5 : IVec S256 32) (main_arg6 : IVec S256x5 1) (main_arg7 : IVec S256x5x9 32) (main_arg8 : IVec S256x5x9 1) : IVec S_ 1 :=
  let main_v0 : FVec F S349184x80 .f32 := Host.absf main_arg0
  let main_cst : FVec F S_ .f32 := constant S_ .f32 0x7F800000#32
  let main_v1 : FVec F S349184x80 .f32 := broadcastInDim S349184x80 ![] bcast_S_S349184x80 main_cst
  let main_v2 : IVec S349184x80 1 := cmpf .olt main_v0 main_v1
  let main_c : IVec S_ 1 := constantI S_ 1 1#1
  let main_v3 : IVec S_ 1 := (fun x v => Host.reduce IntOp.andi x v reducesTo_S349184x80_S_d0_1 h_S_) main_v2 main_c
  let main_v4 : FVec F S349184x4 .f32 := Host.absf main_arg1
  let main_cst_0 : FVec F S_ .f32 := constant S_ .f32 0x7F800000#32
  let main_v5 : FVec F S349184x4 .f32 := broadcastInDim S349184x4 ![] bcast_S_S349184x4 main_cst_0
  let main_v6 : IVec S349184x4 1 := cmpf .olt main_v4 main_v5
  let main_c_1 : IVec S_ 1 := constantI S_ 1 1#1
  let main_v7 : IVec S_ 1 := (fun x v => Host.reduce IntOp.andi x v reducesTo_S349184x4_S_d0_1 h_S_) main_v6 main_c_1
  let main_v8 : IVec S_ 1 := andi main_v3 main_v7
  let main_v9 : FVec F S349184x80 .f32 := Host.absf main_arg2
  let main_cst_2 : FVec F S_ .f32 := constant S_ .f32 0x7F800000#32
  let main_v10 : FVec F S349184x80 .f32 := broadcastInDim S349184x80 ![] bcast_S_S349184x80 main_cst_2
  let main_v11 : IVec S349184x80 1 := cmpf .olt main_v9 main_v10
  let main_c_3 : IVec S_ 1 := constantI S_ 1 1#1
  let main_v12 : IVec S_ 1 := (fun x v => Host.reduce IntOp.andi x v reducesTo_S349184x80_S_d0_1 h_S_) main_v11 main_c_3
  let main_v13 : IVec S_ 1 := andi main_v8 main_v12
  let main_v14 : FVec F S256x5x9x4 .f32 := Host.absf main_arg3
  let main_cst_4 : FVec F S_ .f32 := constant S_ .f32 0x7F800000#32
  let main_v15 : FVec F S256x5x9x4 .f32 := broadcastInDim S256x5x9x4 ![] bcast_S_S256x5x9x4 main_cst_4
  let main_v16 : IVec S256x5x9x4 1 := cmpf .olt main_v14 main_v15
  fn_part1 (F := F) main_v13 main_v16
-- ==== Kernel.lean ====
abbrev S349184x80 : Shape := ⟨2, ![349184, 80]⟩
abbrev S349184x4 : Shape := ⟨2, ![349184, 4]⟩
abbrev S256x5x9x4 : Shape := ⟨4, ![256, 5, 9, 4]⟩
abbrev S256x5 : Shape := ⟨2, ![256, 5]⟩
abbrev S256 : Shape := ⟨1, ![256]⟩
abbrev S256x5x9 : Shape := ⟨3, ![256, 5, 9]⟩
abbrev S1x1 : Shape := ⟨2, ![1, 1]⟩
abbrev S5632x80 : Shape := ⟨2, ![5632, 80]⟩
abbrev S1x5632x80 : Shape := ⟨3, ![1, 5632, 80]⟩
abbrev S1 : Shape := ⟨1, ![1]⟩
abbrev S1x1x1 : Shape := ⟨3, ![1, 1, 1]⟩
abbrev S_ : Shape := ⟨0, ![]⟩
abbrev S1280 : Shape := ⟨1, ![1280]⟩
abbrev S256x1 : Shape := ⟨2, ![256, 1]⟩
abbrev S1280x1 : Shape := ⟨2, ![1280, 1]⟩
abbrev S1280x2 : Shape := ⟨2, ![1280, 2]⟩
abbrev S256x5x1 : Shape := ⟨3, ![256, 5, 1]⟩
abbrev S256x5x9x1 : Shape := ⟨4, ![256, 5, 9, 1]⟩
abbrev S256x5x9x80 : Shape := ⟨4, ![256, 5, 9, 80]⟩
abbrev S11520x4 : Shape := ⟨2, ![11520, 4]⟩
abbrev S11520 : Shape := ⟨1, ![11520]⟩
abbrev S11520x1 : Shape := ⟨2, ![11520, 1]⟩
abbrev S3 : Shape := ⟨1, ![3]⟩

abbrev nBuf : Space → Nat
  | .hbm => 185
  | .vmem => 6
  | .smem => 0
  | _ => 0

abbrev hbmTy0_0 (i : Nat) : BufTy := match i % 128 with
  | 0 => ⟨S349184x80, .f32⟩
  | 1 => ⟨S349184x4, .f32⟩
  | 2 => ⟨S349184x80, .f32⟩
  | 3 => ⟨S256x5x9x4, .f32⟩
  | 4 => ⟨S256x5, .i32⟩
  | 5 => ⟨S256, .i32⟩
  | 6 => ⟨S256x5, .i1⟩
  | 7 => ⟨S256x5x9, .i32⟩
  | 8 => ⟨S256x5x9, .i1⟩
  | 9 => ⟨S1x1, .f32⟩
  | 10 => ⟨S_, .f32⟩
  | 11 => ⟨S_, .f32⟩
  | 12 => ⟨S_, .f32⟩
  | 13 => ⟨S_, .f32⟩
  | 14 => ⟨S_, .f32⟩
  | 15 => ⟨S1280, .i32⟩
  | 16 => ⟨S256x1, .i32⟩
  | 17 => ⟨S256x5, .i32⟩
  | 18 => ⟨S1280, .i32⟩
  | 19 => ⟨S_, .i32⟩
  | 20 => ⟨S1280, .i32⟩
  | 21 => ⟨S1280, .i1⟩
  | 22 => ⟨S_, .i32⟩
  | 23 => ⟨S1280, .i32⟩
  | 24 => ⟨S1280, .i32⟩
  | 25 => ⟨S1280, .i32⟩
  | 26 => ⟨S_, .i32⟩
  | 27 => ⟨S1280, .i32⟩
  | 28 => ⟨S1280, .i1⟩
  | 29 => ⟨S_, .i32⟩
  | 30 => ⟨S1280, .i32⟩
  | 31 => ⟨S1280, .i32⟩
  | 32 => ⟨S1280, .i32⟩
  | 33 => ⟨S1280x1, .i32⟩
  | 34 => ⟨S1280x1, .i32⟩
  | 35 => ⟨S1280x2, .i32⟩
  | 36 => ⟨S1280, .f32⟩
  | 37 => ⟨S1280, .f32⟩
  | 38 => ⟨S1280, .f32⟩
  | 39 => ⟨S_, .f32⟩
  | 40 => ⟨S1280, .f32⟩
  | 41 => ⟨S1280, .f32⟩
  | 42 => ⟨S_, .f32⟩
  | 43 => ⟨S1280, .f32⟩
  | 44 => ⟨S1280, .f32⟩
  | 45 => ⟨S_, .f32⟩
  | 46 => ⟨S_, .f32⟩
  | 47 => ⟨S_, .f32⟩
  | 48 => ⟨S1280, .f32⟩
  | 49 => ⟨S1280, .f32⟩
  | 50 => ⟨S_, .f32⟩
  | 51 => ⟨S1280, .f32⟩
  | 52 => ⟨S1280, .f32⟩
  | 53 => ⟨S1280, .f32⟩
  | 54 => ⟨S1280, .f32⟩
  | 55 => ⟨S_, .f32⟩
  | 56 => ⟨S1280, .f32⟩
  | 57 => ⟨S1280, .f32⟩
  | 58 => ⟨S_, .f32⟩
  | 59 => ⟨S1280, .f32⟩
  | 60 => ⟨S1280, .f32⟩
  | 61 => ⟨S1280, .f32⟩
  | 62 => ⟨S1280, .i1⟩
  | 63 => ⟨S1280, .f32⟩
  | 64 => ⟨S1280, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S256x5x1, .i1⟩
  | 72 => ⟨S256x5x9, .i1⟩
  | 73 => ⟨S256x5x9, .i1⟩
  | 74 => ⟨S_, .i32⟩
  | 75 => ⟨S_, .i32⟩
  | 76 => ⟨S256x5x9, .i32⟩
  | 77 => ⟨S256x5x9, .i32⟩
  | 78 => ⟨S_, .i32⟩
  | 79 => ⟨S256x5x9, .i32⟩
  | 80 => ⟨S256x5x9, .i1⟩
  | 81 => ⟨S_, .i32⟩
  | 82 => ⟨S256x5x9, .i32⟩
  | 83 => ⟨S256x5x9, .i32⟩
  | 84 => ⟨S256x5x9, .i32⟩
  | 85 => ⟨S256x5x9x1, .i32⟩
  | 86 => ⟨S256x5x9x80, .f32⟩
  | 87 => ⟨S256x5x9x80, .f32⟩
  | 88 => ⟨S256x5x9x80, .f32⟩
  | 89 => ⟨S_, .f32⟩
  | 90 => ⟨S256x5x9x80, .f32⟩
  | 91 => ⟨S256x5x9x80, .f32⟩
  | 92 => ⟨S_, .f32⟩
  | 93 => ⟨S256x5x9x80, .f32⟩
  | 94 => ⟨S256x5x9x80, .f32⟩
  | 95 => ⟨S_, .f32⟩
  | 96 => ⟨S256x5x9, .f32⟩
  | 97 => ⟨S256x5x9, .f32⟩
  | 98 => ⟨S256x5x9, .f32⟩
  | 99 => ⟨S_, .f32⟩
  | 100 => ⟨S_, .f32⟩
  | 101 => ⟨S_, .f32⟩
  | 102 => ⟨S_, .f32⟩
  | 103 => ⟨S_, .i32⟩
  | 104 => ⟨S256x5x9, .i32⟩
  | 105 => ⟨S256x5x9, .i1⟩
  | 106 => ⟨S_, .i32⟩
  | 107 => ⟨S256x5x9, .i32⟩
  | 108 => ⟨S256x5x9, .i32⟩
  | 109 => ⟨S256x5x9, .i32⟩
  | 110 => ⟨S256x5x9x1, .i32⟩
  | 111 => ⟨S256x5x9x4, .f32⟩
  | 112 => ⟨S11520x4, .f32⟩
  | 113 => ⟨S256x5x9x1, .i1⟩
  | 114 => ⟨S_, .f32⟩
  | 115 => ⟨S_, .f32⟩
  | 116 => ⟨S256x5x9x4, .i1⟩
  | 117 => ⟨S256x5x9x4, .f32⟩
  | 118 => ⟨S256x5x9x4, .f32⟩
  | 119 => ⟨S11520x4, .f32⟩
  | 120 => ⟨S11520, .f32⟩
  | 121 => ⟨S11520x1, .f32⟩
  | 122 => ⟨S11520, .f32⟩
  | 123 => ⟨S11520x1, .f32⟩
  | 124 => ⟨S11520, .f32⟩
  | 125 => ⟨S11520x1, .f32⟩
  | 126 => ⟨S11520, .f32⟩
  | 127 => ⟨S11520x1, .f32⟩
  | _ => ⟨S349184x80, .f32⟩

abbrev hbmTy0_1 (i : Nat) : BufTy := match i % 128 with
  | 0 => ⟨S11520, .f32⟩
  | 1 => ⟨S11520x1, .f32⟩
  | 2 => ⟨S11520, .f32⟩
  | 3 => ⟨S11520x1, .f32⟩
  | 4 => ⟨S11520, .f32⟩
  | 5 => ⟨S11520x1, .f32⟩
  | 6 => ⟨S11520, .f32⟩
  | 7 => ⟨S11520x1, .f32⟩
  | 8 => ⟨S11520, .f32⟩
  | 9 => ⟨S11520, .f32⟩
  | 10 => ⟨S11520, .f32⟩
  | 11 => ⟨S11520, .f32⟩
  | 12 => ⟨S11520, .f32⟩
  | 13 => ⟨S11520, .f32⟩
  | 14 => ⟨S11520, .f32⟩
  | 15 => ⟨S11520, .f32⟩
  | 16 => ⟨S11520, .f32⟩
  | 17 => ⟨S11520, .f32⟩
  | 18 => ⟨S11520, .f32⟩
  | 19 => ⟨S11520, .f32⟩
  | 20 => ⟨S11520, .f32⟩
  | 21 => ⟨S11520, .f32⟩
  | 22 => ⟨S11520, .f32⟩
  | 23 => ⟨S11520, .f32⟩
  | 24 => ⟨S11520, .f32⟩
  | 25 => ⟨S11520, .f32⟩
  | 26 => ⟨S11520, .f32⟩
  | 27 => ⟨S11520, .f32⟩
  | 28 => ⟨S_, .f32⟩
  | 29 => ⟨S11520, .f32⟩
  | 30 => ⟨S11520, .f32⟩
  | 31 => ⟨S11520, .f32⟩
  | 32 => ⟨S11520, .f32⟩
  | 33 => ⟨S11520, .f32⟩
  | 34 => ⟨S_, .f32⟩
  | 35 => ⟨S11520, .f32⟩
  | 36 => ⟨S11520, .f32⟩
  | 37 => ⟨S_, .f32⟩
  | 38 => ⟨S11520, .f32⟩
  | 39 => ⟨S11520, .f32⟩
  | 40 => ⟨S11520, .f32⟩
  | 41 => ⟨S11520, .f32⟩
  | 42 => ⟨S11520, .f32⟩
  | 43 => ⟨S11520, .f32⟩
  | 44 => ⟨S_, .f32⟩
  | 45 => ⟨S11520, .f32⟩
  | 46 => ⟨S11520, .f32⟩
  | 47 => ⟨S11520, .f32⟩
  | 48 => ⟨S_, .f32⟩
  | 49 => ⟨S_, .f32⟩
  | 50 => ⟨S_, .f32⟩
  | 51 => ⟨S_, .f32⟩
  | 52 => ⟨S_, .f32⟩
  | 53 => ⟨S1, .f32⟩
  | 54 => ⟨S1, .f32⟩
  | 55 => ⟨S1, .f32⟩
  | 56 => ⟨S3, .f32⟩
  | _ => ⟨S349184x80, .f32⟩

abbrev hbmTy (i : Nat) : BufTy := match i / 128 with
  | 0 => hbmTy0_0 i
  | 1 => hbmTy0_1 i
  | _ => ⟨S349184x80, .f32⟩

abbrev bufTy : (tb : Table) → Fin (tcTables nBuf tb) → BufTy
  | .hbm, ⟨i, _⟩ => hbmTy i
  | .local _ .vmem, ⟨0, _⟩ => ⟨S5632x80, .f32⟩
  | .local _ .vmem, ⟨1, _⟩ => ⟨S5632x80, .f32⟩
  | .local _ .vmem, ⟨2, _⟩ => ⟨S5632x80, .f32⟩
  | .local _ .vmem, ⟨3, _⟩ => ⟨S5632x80, .f32⟩
  | .local _ .vmem, ⟨4, _⟩ => ⟨S1x1, .f32⟩
  | .local _ .vmem, ⟨5, _⟩ => ⟨S1x1, .f32⟩
  | _, _ => ⟨S349184x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_cst_7 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_8 : Ref sig .tc := ⟨.hbm, 55, rfl⟩
abbrev main_v31 : Ref sig .tc := ⟨.hbm, 56, rfl⟩
abbrev main_v32 : Ref sig .tc := ⟨.hbm, 57, rfl⟩
abbrev main_cst_9 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_10 : Ref sig .tc := ⟨.hbm, 65, rfl⟩
abbrev main_v39 : Ref sig .tc := ⟨.hbm, 66, rfl⟩
abbrev main_cst_11 : Ref sig .tc := ⟨.hbm, 67, rfl⟩
abbrev main_v40 : Ref sig .tc := ⟨.hbm, 68, rfl⟩
abbrev main_cst_12 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_c_13 : Ref sig .tc := ⟨.hbm, 74, rfl⟩
abbrev main_call1_v0 : Ref sig .tc := ⟨.hbm, 75, rfl⟩
abbrev main_call1_v1 : Ref sig .tc := ⟨.hbm, 76, rfl⟩
abbrev main_v45 : Ref sig .tc := ⟨.hbm, 77, rfl⟩
abbrev main_c_14 : Ref sig .tc := ⟨.hbm, 78, rfl⟩
abbrev main_v46 : Ref sig .tc := ⟨.hbm, 79, rfl⟩
abbrev main_v47 : Ref sig .tc := ⟨.hbm, 80, rfl⟩
abbrev main_c_15 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_16 : Ref sig .tc := ⟨.hbm, 89, rfl⟩
abbrev main_v55 : Ref sig .tc := ⟨.hbm, 90, rfl⟩
abbrev main_v56 : Ref sig .tc := ⟨.hbm, 91, rfl⟩
abbrev main_cst_17 : Ref sig .tc := ⟨.hbm, 92, rfl⟩
abbrev main_v57 : Ref sig .tc := ⟨.hbm, 93, rfl⟩
abbrev main_v58 : Ref sig .tc := ⟨.hbm, 94, rfl⟩
abbrev main_cst_18 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_19 : Ref sig .tc := ⟨.hbm, 99, rfl⟩
abbrev main_v62 : Ref sig .tc := ⟨.hbm, 100, rfl⟩
abbrev main_cst_20 : Ref sig .tc := ⟨.hbm, 101, rfl⟩
abbrev main_v63 : Ref sig .tc := ⟨.hbm, 102, rfl⟩
abbrev main_c_21 : Ref sig .tc := ⟨.hbm, 103, rfl⟩
abbrev main_v64 : Ref sig .tc := ⟨.hbm, 104, rfl⟩
abbrev main_v65 : Ref sig .tc := ⟨.hbm, 105, rfl⟩
abbrev main_c_22 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_cst_23 : Ref sig .tc := ⟨.hbm, 114, rfl⟩
abbrev main_call2_v0 : Ref sig .tc := ⟨.hbm, 115, rfl⟩
abbrev main_call2_v1 : Ref sig .tc := ⟨.hbm, 116, rfl⟩
abbrev main_call2_v2 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_cst_24 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_cst_25 : Ref sig .tc := ⟨.hbm, 162, rfl⟩
abbrev main_v116 : Ref sig .tc := ⟨.hbm, 163, rfl⟩
abbrev main_v117 : Ref sig .tc := ⟨.hbm, 164, rfl⟩
abbrev main_cst_26 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_cst_27 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_cst_28 : Ref sig .tc := ⟨.hbm, 176, rfl⟩
abbrev main_v127 : Ref sig .tc := ⟨.hbm, 177, rfl⟩
abbrev main_cst_29 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![62], ![false]⟩

def k0_cond2 (i : grid0.Coords) : BitVec 1 :=
  let arg0 : BitVec 32 := BitVec.ofNat 32 (i 0).val
  let c61_i32 : BitVec 32 := 61#32
  let v33 : BitVec 1 := Scalar.cmpi .eq arg0 c61_i32
  let v34 : BitVec 32 := Scalar.extui v33
  let c0_i32_13 : BitVec 32 := 0#32
  let v35 : BitVec 1 := Scalar.cmpi .ne v34 c0_i32_13
  v35

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5632x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5632x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S5632x80_S5632x80_0_0 : ∀ a, (![0, 0] : Fin 2 → Nat) a + S5632x80.size a ≤ S5632x80.size a
  h_S5632x80 : 0 < S5632x80.numel
  shapeCasts_S5632x80_S1x5632x80 : S5632x80.ShapeCasts S1x5632x80
  reduces_S1x5632x80_S1 : S1x5632x80.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  shapeCasts_S256x5_S1280 : S256x5.ShapeCasts S1280
  bcast_S256_S256x1_0 : S256.BroadcastsInDim S256x1 (![0] : Fin 1 → Fin S256x1.rank)
  bcast_S256x1_S256x5_0_1 : S256x1.BroadcastsInDim S256x5 (![0, 1] : Fin 2 → Fin S256x5.rank)
  bcast_S_S1280 : S_.BroadcastsInDim S1280 (![] : Fin 0 → Fin S1280.rank)
  bcast_S1280_S1280x1_0 : S1280.BroadcastsInDim S1280x1 (![0] : Fin 1 → Fin S1280x1.rank)
  concatenates_S1280x1_S1280x1_S1280x2_d1 : Shape.Concatenates [S1280x1, S1280x1] S1280x2 1
  reducesTo_S1280_S_d0 : S1280.ReducesTo [0] S_
  h_S_ : 0 < S_.numel
  bcast_S256x5_S256x5x1_0_1 : S256x5.BroadcastsInDim S256x5x1 (![0, 1] : Fin 2 → Fin S256x5x1.rank)
  bcast_S256x5x1_S256x5x9_0_1_2 : S256x5x1.BroadcastsInDim S256x5x9 (![0, 1, 2] : Fin 3 → Fin S256x5x9.rank)
  bcast_S_S256x5x9 : S_.BroadcastsInDim S256x5x9 (![] : Fin 0 → Fin S256x5x9.rank)
  bcast_S256x5x9_S256x5x9x1_0_1_2 : S256x5x9.BroadcastsInDim S256x5x9x1 (![0, 1, 2] : Fin 3 → Fin S256x5x9x1.rank)
  bcast_S_S256x5x9x80 : S_.BroadcastsInDim S256x5x9x80 (![] : Fin 0 → Fin S256x5x9x80.rank)
  reducesTo_S256x5x9x80_S256x5x9_d3 : S256x5x9x80.ReducesTo [3] S256x5x9
  reducesTo_S256x5x9_S_d0_1_2 : S256x5x9.ReducesTo [0, 1, 2] S_
  shapeCasts_S256x5x9x4_S11520x4 : S256x5x9x4.ShapeCasts S11520x4
  bcast_S256x5x9x1_S256x5x9x4_0_1_2_3 : S256x5x9x1.BroadcastsInDim S256x5x9x4 (![0, 1, 2, 3] : Fin 4 → Fin S256x5x9x4.rank)
  bcast_S_S256x5x9x4 : S_.BroadcastsInDim S256x5x9x4 (![] : Fin 0 → Fin S256x5x9x4.rank)
  shapeCasts_S256x5x9_S11520 : S256x5x9.ShapeCasts S11520
  slices_S11520x4_S11520x1_0_0 : S11520x4.Slices ![0, 0] S11520x1
  shapeCasts_S11520x1_S11520 : S11520x1.ShapeCasts S11520
  slices_S11520x4_S11520x1_0_1 : S11520x4.Slices ![0, 1] S11520x1
  slices_S11520x4_S11520x1_0_2 : S11520x4.Slices ![0, 2] S11520x1
  slices_S11520x4_S11520x1_0_3 : S11520x4.Slices ![0, 3] S11520x1
  bcast_S_S11520 : S_.BroadcastsInDim S11520 (![] : Fin 0 → Fin S11520.rank)
  reducesTo_S11520_S_d0 : S11520.ReducesTo [0] S_
  bcast_S_S1 : S_.BroadcastsInDim S1 (![] : Fin 0 → Fin S1.rank)
  concatenates_S1_S1_S1_S3_d0 : Shape.Concatenates [S1, S1, S1] S3 0
  gather_S349184x80_S1280x2_S1280_n_01_n_n_01_1_11_wf : GatherDims.WF S349184x80 S1280x2 S1280 [] [0, 1] [] [0, 1] [] 1 ![1, 1]
  gather_S349184x80_S256x5x9x1_S256x5x9x80_3_0_n_n_0_3_180_wf : GatherDims.WF S349184x80 S256x5x9x1 S256x5x9x80 [3] [0] [] [0] [] 3 ![1, 80]
  gather_S349184x4_S256x5x9x1_S256x5x9x4_3_0_n_n_0_3_14_wf : GatherDims.WF S349184x4 S256x5x9x1 S256x5x9x4 [3] [0] [] [0] [] 3 ![1, 4]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5632x80.size a ≤ S349184x80.size a
  hwx0_0 : ∀ i : grid0.Coords, EltTy.bits .f32 = 32 ∨ (Rect.block (s := S349184x80) S5632x80.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5632x80.size a ≤ S349184x80.size a
  hwx0_1 : ∀ i : grid0.Coords, EltTy.bits .f32 = 32 ∨ (Rect.block (s := S349184x80) S5632x80.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def gather_S349184x80_S1280x2_S1280_n_01_n_n_01_1_11 : GatherDims S349184x80 S1280x2 S1280 where
  offsetDims := []
  collapsedSliceDims := [0, 1]
  operandBatchingDims := []
  startIndicesBatchingDims := []
  startIndexMap := [0, 1]
  indexVectorDim := 1
  sliceSizes := ![1, 1]
  wf := gather_S349184x80_S1280x2_S1280_n_01_n_n_01_1_11_wf
def gather_S349184x80_S256x5x9x1_S256x5x9x80_3_0_n_n_0_3_180 : GatherDims S349184x80 S256x5x9x1 S256x5x9x80 where
  offsetDims := [3]
  collapsedSliceDims := [0]
  operandBatchingDims := []
  startIndicesBatchingDims := []
  startIndexMap := [0]
  indexVectorDim := 3
  sliceSizes := ![1, 80]
  wf := gather_S349184x80_S256x5x9x1_S256x5x9x80_3_0_n_n_0_3_180_wf
def gather_S349184x4_S256x5x9x1_S256x5x9x4_3_0_n_n_0_3_14 : GatherDims S349184x4 S256x5x9x1 S256x5x9x4 where
  offsetDims := [3]
  collapsedSliceDims := [0]
  operandBatchingDims := []
  startIndicesBatchingDims := []
  startIndexMap := [0]
  indexVectorDim := 3
  sliceSizes := ![1, 4]
  wf := gather_S349184x4_S256x5x9x1_S256x5x9x4_3_0_n_n_0_3_14_wf

abbrev win0_0 : Pipeline.Window sig grid0 :=
  Pipeline.Window.ofSpec (Memref.whole main_arg0) S5632x80.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S5632x80.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S349184x80 : Shape := ⟨2, ![349184, 80]⟩
abbrev S349184x4 : Shape := ⟨2, ![349184, 4]⟩
abbrev S256x5x9x4 : Shape := ⟨4, ![256, 5, 9, 4]⟩
abbrev S256x5 : Shape := ⟨2, ![256, 5]⟩
abbrev S256 : Shape := ⟨1, ![256]⟩
abbrev S256x5x9 : Shape := ⟨3, ![256, 5, 9]⟩
abbrev S_ : Shape := ⟨0, ![]⟩
abbrev S1280 : Shape := ⟨1, ![1280]⟩
abbrev S256x1 : Shape := ⟨2, ![256, 1]⟩
abbrev S1280x1 : Shape := ⟨2, ![1280, 1]⟩
abbrev S1280x2 : Shape := ⟨2, ![1280, 2]⟩
abbrev S256x5x1 : Shape := ⟨3, ![256, 5, 1]⟩
abbrev S256x5x9x1 : Shape := ⟨4, ![256, 5, 9, 1]⟩
abbrev S256x5x9x80 : Shape := ⟨4, ![256, 5, 9, 80]⟩
abbrev S11520x4 : Shape := ⟨2, ![11520, 4]⟩
abbrev S11520 : Shape := ⟨1, ![11520]⟩
abbrev S11520x1 : Shape := ⟨2, ![11520, 1]⟩
abbrev S1 : Shape := ⟨1, ![1]⟩
abbrev S3 : Shape := ⟨1, ![3]⟩

abbrev nBuf : Space → Nat
  | .hbm => 200
  | .vmem => 0
  | .smem => 0
  | _ => 0

abbrev hbmTy0_0 (i : Nat) : BufTy := match i % 128 with
  | 0 => ⟨S349184x80, .f32⟩
  | 1 => ⟨S349184x4, .f32⟩
  | 2 => ⟨S349184x80, .f32⟩
  | 3 => ⟨S256x5x9x4, .f32⟩
  | 4 => ⟨S256x5, .i32⟩
  | 5 => ⟨S256, .i32⟩
  | 6 => ⟨S256x5, .i1⟩
  | 7 => ⟨S256x5x9, .i32⟩
  | 8 => ⟨S256x5x9, .i1⟩
  | 9 => ⟨S349184x80, .f32⟩
  | 10 => ⟨S349184x80, .f32⟩
  | 11 => ⟨S_, .f32⟩
  | 12 => ⟨S349184x80, .f32⟩
  | 13 => ⟨S349184x80, .f32⟩
  | 14 => ⟨S_, .f32⟩
  | 15 => ⟨S349184x80, .f32⟩
  | 16 => ⟨S349184x80, .f32⟩
  | 17 => ⟨S1280, .i32⟩
  | 18 => ⟨S256x1, .i32⟩
  | 19 => ⟨S256x5, .i32⟩
  | 20 => ⟨S1280, .i32⟩
  | 21 => ⟨S_, .i32⟩
  | 22 => ⟨S1280, .i32⟩
  | 23 => ⟨S1280, .i1⟩
  | 24 => ⟨S_, .i32⟩
  | 25 => ⟨S1280, .i32⟩
  | 26 => ⟨S1280, .i32⟩
  | 27 => ⟨S1280, .i32⟩
  | 28 => ⟨S_, .i32⟩
  | 29 => ⟨S1280, .i32⟩
  | 30 => ⟨S1280, .i1⟩
  | 31 => ⟨S_, .i32⟩
  | 32 => ⟨S1280, .i32⟩
  | 33 => ⟨S1280, .i32⟩
  | 34 => ⟨S1280, .i32⟩
  | 35 => ⟨S1280x1, .i32⟩
  | 36 => ⟨S1280x1, .i32⟩
  | 37 => ⟨S1280x2, .i32⟩
  | 38 => ⟨S1280, .f32⟩
  | 39 => ⟨S_, .f32⟩
  | 40 => ⟨S_, .f32⟩
  | 41 => ⟨S_, .f32⟩
  | 42 => ⟨S1280, .f32⟩
  | 43 => ⟨S1280, .f32⟩
  | 44 => ⟨S_, .f32⟩
  | 45 => ⟨S1280, .f32⟩
  | 46 => ⟨S1280, .f32⟩
  | 47 => ⟨S1280, .f32⟩
  | 48 => ⟨S1280, .f32⟩
  | 49 => ⟨S_, .f32⟩
  | 50 => ⟨S1280, .f32⟩
  | 51 => ⟨S1280, .f32⟩
  | 52 => ⟨S_, .f32⟩
  | 53 => ⟨S1280, .f32⟩
  | 54 => ⟨S1280, .f32⟩
  | 55 => ⟨S1280, .f32⟩
  | 56 => ⟨S1280, .i1⟩
  | 57 => ⟨S1280, .f32⟩
  | 58 => ⟨S1280, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S349184x80, .f32⟩
  | 67 => ⟨S349184x80, .f32⟩
  | 68 => ⟨S_, .f32⟩
  | 69 => ⟨S349184x80, .f32⟩
  | 70 => ⟨S349184x80, .f32⟩
  | 71 => ⟨S_, .f32⟩
  | 72 => ⟨S349184x80, .f32⟩
  | 73 => ⟨S349184x80, .f32⟩
  | 74 => ⟨S349184x80, .f32⟩
  | 75 => ⟨S349184x80, .f32⟩
  | 76 => ⟨S_, .f32⟩
  | 77 => ⟨S349184x80, .f32⟩
  | 78 => ⟨S349184x80, .f32⟩
  | 79 => ⟨S349184x80, .f32⟩
  | 80 => ⟨S349184x80, .f32⟩
  | 81 => ⟨S_, .f32⟩
  | 82 => ⟨S349184x80, .f32⟩
  | 83 => ⟨S349184x80, .i1⟩
  | 84 => ⟨S_, .f32⟩
  | 85 => ⟨S_, .f32⟩
  | 86 => ⟨S349184x80, .f32⟩
  | 87 => ⟨S349184x80, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S256x5x1, .i1⟩
  | 95 => ⟨S256x5x9, .i1⟩
  | 96 => ⟨S256x5x9, .i1⟩
  | 97 => ⟨S_, .i32⟩
  | 98 => ⟨S_, .i32⟩
  | 99 => ⟨S256x5x9, .i32⟩
  | 100 => ⟨S256x5x9, .i32⟩
  | 101 => ⟨S_, .i32⟩
  | 102 => ⟨S256x5x9, .i32⟩
  | 103 => ⟨S256x5x9, .i1⟩
  | 104 => ⟨S_, .i32⟩
  | 105 => ⟨S256x5x9, .i32⟩
  | 106 => ⟨S256x5x9, .i32⟩
  | 107 => ⟨S256x5x9, .i32⟩
  | 108 => ⟨S256x5x9x1, .i32⟩
  | 109 => ⟨S256x5x9x80, .f32⟩
  | 110 => ⟨S_, .f32⟩
  | 111 => ⟨S256x5x9, .f32⟩
  | 112 => ⟨S256x5x9, .f32⟩
  | 113 => ⟨S256x5x9, .f32⟩
  | 114 => ⟨S_, .f32⟩
  | 115 => ⟨S_, .f32⟩
  | 116 => ⟨S_, .f32⟩
  | 117 => ⟨S_, .f32⟩
  | 118 => ⟨S_, .i32⟩
  | 119 => ⟨S256x5x9, .i32⟩
  | 120 => ⟨S256x5x9, .i1⟩
  | 121 => ⟨S_, .i32⟩
  | 122 => ⟨S256x5x9, .i32⟩
  | 123 => ⟨S256x5x9, .i32⟩
  | 124 => ⟨S256x5x9, .i32⟩
  | 125 => ⟨S256x5x9x1, .i32⟩
  | 126 => ⟨S256x5x9x4, .f32⟩
  | 127 => ⟨S11520x4, .f32⟩
  | _ => ⟨S349184x80, .f32⟩

abbrev hbmTy0_1 (i : Nat) : BufTy := match i % 128 with
  | 0 => ⟨S256x5x9x1, .i1⟩
  | 1 => ⟨S_, .f32⟩
  | 2 => ⟨S_, .f32⟩
  | 3 => ⟨S256x5x9x4, .i1⟩
  | 4 => ⟨S256x5x9x4, .f32⟩
  | 5 => ⟨S256x5x9x4, .f32⟩
  | 6 => ⟨S11520x4, .f32⟩
  | 7 => ⟨S11520, .f32⟩
  | 8 => ⟨S11520x1, .f32⟩
  | 9 => ⟨S11520, .f32⟩
  | 10 => ⟨S11520x1, .f32⟩
  | 11 => ⟨S11520, .f32⟩
  | 12 => ⟨S11520x1, .f32⟩
  | 13 => ⟨S11520, .f32⟩
  | 14 => ⟨S11520x1, .f32⟩
  | 15 => ⟨S11520, .f32⟩
  | 16 => ⟨S11520x1, .f32⟩
  | 17 => ⟨S11520, .f32⟩
  | 18 => ⟨S11520x1, .f32⟩
  | 19 => ⟨S11520, .f32⟩
  | 20 => ⟨S11520x1, .f32⟩
  | 21 => ⟨S11520, .f32⟩
  | 22 => ⟨S11520x1, .f32⟩
  | 23 => ⟨S11520, .f32⟩
  | 24 => ⟨S11520, .f32⟩
  | 25 => ⟨S11520, .f32⟩
  | 26 => ⟨S11520, .f32⟩
  | 27 => ⟨S11520, .f32⟩
  | 28 => ⟨S11520, .f32⟩
  | 29 => ⟨S11520, .f32⟩
  | 30 => ⟨S11520, .f32⟩
  | 31 => ⟨S11520, .f32⟩
  | 32 => ⟨S11520, .f32⟩
  | 33 => ⟨S11520, .f32⟩
  | 34 => ⟨S11520, .f32⟩
  | 35 => ⟨S11520, .f32⟩
  | 36 => ⟨S11520, .f32⟩
  | 37 => ⟨S11520, .f32⟩
  | 38 => ⟨S11520, .f32⟩
  | 39 => ⟨S11520, .f32⟩
  | 40 => ⟨S11520, .f32⟩
  | 41 => ⟨S11520, .f32⟩
  | 42 => ⟨S11520, .f32⟩
  | 43 => ⟨S_, .f32⟩
  | 44 => ⟨S11520, .f32⟩
  | 45 => ⟨S11520, .f32⟩
  | 46 => ⟨S11520, .f32⟩
  | 47 => ⟨S11520, .f32⟩
  | 48 => ⟨S11520, .f32⟩
  | 49 => ⟨S_, .f32⟩
  | 50 => ⟨S11520, .f32⟩
  | 51 => ⟨S11520, .f32⟩
  | 52 => ⟨S_, .f32⟩
  | 53 => ⟨S11520, .f32⟩
  | 54 => ⟨S11520, .f32⟩
  | 55 => ⟨S11520, .f32⟩
  | 56 => ⟨S11520, .f32⟩
  | 57 => ⟨S11520, .f32⟩
  | 58 => ⟨S11520, .f32⟩
  | 59 => ⟨S_, .f32⟩
  | 60 => ⟨S11520, .f32⟩
  | 61 => ⟨S11520, .f32⟩
  | 62 => ⟨S11520, .f32⟩
  | 63 => ⟨S_, .f32⟩
  | 64 => ⟨S_, .f32⟩
  | 65 => ⟨S_, .f32⟩
  | 66 => ⟨S_, .f32⟩
  | 67 => ⟨S_, .f32⟩
  | 68 => ⟨S1, .f32⟩
  | 69 => ⟨S1, .f32⟩
  | 70 => ⟨S1, .f32⟩
  | 71 => ⟨S3, .f32⟩
  | _ => ⟨S349184x80, .f32⟩

abbrev hbmTy (i : Nat) : BufTy := match i / 128 with
  | 0 => hbmTy0_0 i
  | 1 => hbmTy0_1 i
  | _ => ⟨S349184x80, .f32⟩

abbrev bufTy : (tb : Table) → Fin (tcTables nBuf tb) → BufTy
  | .hbm, ⟨i, _⟩ => hbmTy i
  | _, _ => ⟨S349184x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_cst_5 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_6 : Ref sig .tc := ⟨.hbm, 49, rfl⟩
abbrev main_v27 : Ref sig .tc := ⟨.hbm, 50, rfl⟩
abbrev main_v28 : Ref sig .tc := ⟨.hbm, 51, rfl⟩
abbrev main_cst_7 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_8 : Ref sig .tc := ⟨.hbm, 59, rfl⟩
abbrev main_v35 : Ref sig .tc := ⟨.hbm, 60, rfl⟩
abbrev main_cst_9 : Ref sig .tc := ⟨.hbm, 61, rfl⟩
abbrev main_v36 : Ref sig .tc := ⟨.hbm, 62, rfl⟩
abbrev main_cst_10 : Ref sig .tc := ⟨.hbm, 63, rfl⟩
abbrev main_v37 : Ref sig .tc := ⟨.hbm, 64, rfl⟩
abbrev main_cst_11 : Ref sig .tc := ⟨.hbm, 65, rfl⟩
abbrev main_v38 : Ref sig .tc := ⟨.hbm, 66, rfl⟩
abbrev main_v39 : Ref sig .tc := ⟨.hbm, 67, rfl⟩
abbrev main_cst_12 : Ref sig .tc := ⟨.hbm, 68, rfl⟩
abbrev main_v40 : Ref sig .tc := ⟨.hbm, 69, rfl⟩
abbrev main_v41 : Ref sig .tc := ⟨.hbm, 70, rfl⟩
abbrev main_cst_13 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_14 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_15 : Ref sig .tc := ⟨.hbm, 81, rfl⟩
abbrev main_v50 : Ref sig .tc := ⟨.hbm, 82, rfl⟩
abbrev main_v51 : Ref sig .tc := ⟨.hbm, 83, rfl⟩
abbrev main_cst_16 : Ref sig .tc := ⟨.hbm, 84, rfl⟩
abbrev main_call1_v0 : Ref sig .tc := ⟨.hbm, 85, rfl⟩
abbrev main_call1_v1 : Ref sig .tc := ⟨.hbm, 86, rfl⟩
abbrev main_v52 : Ref sig .tc := ⟨.hbm, 87, rfl⟩
abbrev main_cst_17 : Ref sig .tc := ⟨.hbm, 88, rfl⟩
abbrev main_v53 : Ref sig .tc := ⟨.hbm, 89, rfl⟩
abbrev main_cst_18 : Ref sig .tc := ⟨.hbm, 90, rfl⟩
abbrev main_v54 : Ref sig .tc := ⟨.hbm, 91, rfl⟩
abbrev main_cst_19 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_c_20 : Ref sig .tc := ⟨.hbm, 97, rfl⟩
abbrev main_call2_v0 : Ref sig .tc := ⟨.hbm, 98, rfl⟩
abbrev main_call2_v1 : Ref sig .tc := ⟨.hbm, 99, rfl⟩
abbrev main_v59 : Ref sig .tc := ⟨.hbm, 100, rfl⟩
abbrev main_c_21 : Ref sig .tc := ⟨.hbm, 101, rfl⟩
abbrev main_v60 : Ref sig .tc := ⟨.hbm, 102, rfl⟩
abbrev main_v61 : Ref sig .tc := ⟨.hbm, 103, rfl⟩
abbrev main_c_22 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_cst_23 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_cst_24 : Ref sig .tc := ⟨.hbm, 114, rfl⟩
abbrev main_v70 : Ref sig .tc := ⟨.hbm, 115, rfl⟩
abbrev main_cst_25 : Ref sig .tc := ⟨.hbm, 116, rfl⟩
abbrev main_v71 : Ref sig .tc := ⟨.hbm, 117, rfl⟩
abbrev main_c_26 : Ref sig .tc := ⟨.hbm, 118, rfl⟩
abbrev main_v72 : Ref sig .tc := ⟨.hbm, 119, rfl⟩
abbrev main_v73 : Ref sig .tc := ⟨.hbm, 120, rfl⟩
abbrev main_c_27 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_cst_28 : Ref sig .tc := ⟨.hbm, 129, rfl⟩
abbrev main_call3_v0 : Ref sig .tc := ⟨.hbm, 130, rfl⟩
abbrev main_call3_v1 : Ref sig .tc := ⟨.hbm, 131, rfl⟩
abbrev main_call3_v2 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_cst_29 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_cst_30 : Ref sig .tc := ⟨.hbm, 177, rfl⟩
abbrev main_v124 : Ref sig .tc := ⟨.hbm, 178, rfl⟩
abbrev main_v125 : Ref sig .tc := ⟨.hbm, 179, rfl⟩
abbrev main_cst_31 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_cst_32 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_cst_33 : Ref sig .tc := ⟨.hbm, 191, rfl⟩
abbrev main_v135 : Ref sig .tc := ⟨.hbm, 192, rfl⟩
abbrev main_cst_34 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩

abbrev nD : Nat := 1
abbrev τ : Topo := Topo.v7x

variable {F : FTy → Type} [FloatOps F]

class Facts₀ : Prop where
  bcast_S_S349184x80 : S_.BroadcastsInDim S349184x80 (![] : Fin 0 → Fin S349184x80.rank)
  shapeCasts_S256x5_S1280 : S256x5.ShapeCasts S1280
  bcast_S256_S256x1_0 : S256.BroadcastsInDim S256x1 (![0] : Fin 1 → Fin S256x1.rank)
  bcast_S256x1_S256x5_0_1 : S256x1.BroadcastsInDim S256x5 (![0, 1] : Fin 2 → Fin S256x5.rank)
  bcast_S_S1280 : S_.BroadcastsInDim S1280 (![] : Fin 0 → Fin S1280.rank)
  bcast_S1280_S1280x1_0 : S1280.BroadcastsInDim S1280x1 (![0] : Fin 1 → Fin S1280x1.rank)
  concatenates_S1280x1_S1280x1_S1280x2_d1 : Shape.Concatenates [S1280x1, S1280x1] S1280x2 1
  reducesTo_S1280_S_d0 : S1280.ReducesTo [0] S_
  h_S_ : 0 < S_.numel
  reducesTo_S349184x80_S_d0_1 : S349184x80.ReducesTo [0, 1] S_
  bcast_S256x5_S256x5x1_0_1 : S256x5.BroadcastsInDim S256x5x1 (![0, 1] : Fin 2 → Fin S256x5x1.rank)
  bcast_S256x5x1_S256x5x9_0_1_2 : S256x5x1.BroadcastsInDim S256x5x9 (![0, 1, 2] : Fin 3 → Fin S256x5x9.rank)
  bcast_S_S256x5x9 : S_.BroadcastsInDim S256x5x9 (![] : Fin 0 → Fin S256x5x9.rank)
  bcast_S256x5x9_S256x5x9x1_0_1_2 : S256x5x9.BroadcastsInDim S256x5x9x1 (![0, 1, 2] : Fin 3 → Fin S256x5x9x1.rank)
  reducesTo_S256x5x9x80_S256x5x9_d3 : S256x5x9x80.ReducesTo [3] S256x5x9
  reducesTo_S256x5x9_S_d0_1_2 : S256x5x9.ReducesTo [0, 1, 2] S_
  shapeCasts_S256x5x9x4_S11520x4 : S256x5x9x4.ShapeCasts S11520x4
  bcast_S256x5x9x1_S256x5x9x4_0_1_2_3 : S256x5x9x1.BroadcastsInDim S256x5x9x4 (![0, 1, 2, 3] : Fin 4 → Fin S256x5x9x4.rank)
  bcast_S_S256x5x9x4 : S_.BroadcastsInDim S256x5x9x4 (![] : Fin 0 → Fin S256x5x9x4.rank)
  shapeCasts_S256x5x9_S11520 : S256x5x9.ShapeCasts S11520
  slices_S11520x4_S11520x1_0_0 : S11520x4.Slices ![0, 0] S11520x1
  shapeCasts_S11520x1_S11520 : S11520x1.ShapeCasts S11520
  slices_S11520x4_S11520x1_0_1 : S11520x4.Slices ![0, 1] S11520x1
  slices_S11520x4_S11520x1_0_2 : S11520x4.Slices ![0, 2] S11520x1
  slices_S11520x4_S11520x1_0_3 : S11520x4.Slices ![0, 3] S11520x1
  bcast_S_S11520 : S_.BroadcastsInDim S11520 (![] : Fin 0 → Fin S11520.rank)
  reducesTo_S11520_S_d0 : S11520.ReducesTo [0] S_
  bcast_S_S1 : S_.BroadcastsInDim S1 (![] : Fin 0 → Fin S1.rank)
  concatenates_S1_S1_S1_S3_d0 : Shape.Concatenates [S1, S1, S1] S3 0
  gather_S349184x80_S1280x2_S1280_n_01_n_n_01_1_11_wf : GatherDims.WF S349184x80 S1280x2 S1280 [] [0, 1] [] [0, 1] [] 1 ![1, 1]
  gather_S349184x80_S256x5x9x1_S256x5x9x80_3_0_n_n_0_3_180_wf : GatherDims.WF S349184x80 S256x5x9x1 S256x5x9x80 [3] [0] [] [0] [] 3 ![1, 80]
  gather_S349184x4_S256x5x9x1_S256x5x9x4_3_0_n_n_0_3_14_wf : GatherDims.WF S349184x4 S256x5x9x1 S256x5x9x4 [3] [0] [] [0] [] 3 ![1, 4]

variable [Facts₀]

def gather_S349184x80_S1280x2_S1280_n_01_n_n_01_1_11 : GatherDims S349184x80 S1280x2 S1280 where
  offsetDims := []
  collapsedSliceDims := [0, 1]
  operandBatchingDims := []
  startIndicesBatchingDims := []
  startIndexMap := [0, 1]
  indexVectorDim := 1
  sliceSizes := ![1, 1]
  wf := gather_S349184x80_S1280x2_S1280_n_01_n_n_01_1_11_wf
def gather_S349184x80_S256x5x9x1_S256x5x9x80_3_0_n_n_0_3_180 : GatherDims S349184x80 S256x5x9x1 S256x5x9x80 where
  offsetDims := [3]
  collapsedSliceDims := [0]
  operandBatchingDims := []
  startIndicesBatchingDims := []
  startIndexMap := [0]
  indexVectorDim := 3
  sliceSizes := ![1, 80]
  wf := gather_S349184x80_S256x5x9x1_S256x5x9x80_3_0_n_n_0_3_180_wf
def gather_S349184x4_S256x5x9x1_S256x5x9x4_3_0_n_n_0_3_14 : GatherDims S349184x4 S256x5x9x1 S256x5x9x4 where
  offsetDims := [3]
  collapsedSliceDims := [0]
  operandBatchingDims := []
  startIndicesBatchingDims := []
  startIndexMap := [0]
  indexVectorDim := 3
  sliceSizes := ![1, 4]
  wf := gather_S349184x4_S256x5x9x1_S256x5x9x4_3_0_n_n_0_3_14_wf

class Facts : Prop extends Facts₀ where

variable [Facts]
-- ==== Proof.BitsAround.lean ====
/-
  The host program around the one kernel region: the region comes first, and 175 host operations
  follow it.  This module says what the region finds in each buffer (the memory the program starts
  from: no host operation precedes the region), that the program is the region followed by the seven
  stretches of host operations, that each of those operations writes exactly one buffer which is
  neither an argument nor the region's result, and hence that a run ending in the launch theorem's
  post leaves all nine arguments as they were.  It also decides, over the 62 grid points, when the
  body's two branches are taken (the first point resets the accumulator, the last one copies it out)
  and where the output window is idle.
-/
import proofs.«126601_j68753836474735_1_alg».proof.Proof.Gen.Kernel.Launch
import proofs.«126601_j68753836474735_1_alg».proof.Proof.Gen.Kernel.Skeleton
import proofs.«126601_j68753836474735_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- What each buffer of core `c` holds when the region is entered: the initial memory. -/
abbrev V0 (c : Dev nD) : Valuation τ sig (Elt F) := StableHlo.after (List.flatten []) (fun b => m (c, b))
/-- The same, read at a reference of the core. -/
abbrev V (c : Dev nD) (b : Ref sig .tc) : Buf (Elt F) ((c : Thread nD τ).loc b) := V0 m c (Proc.devRef .tc b)

/-- The host operations after the region, stretch by stretch, in program order. -/
abbrev tailOps : List (List (HloOp τ sig (Elt F))) :=
  [hostOps1, hostOps1_1, hostOps1_2, hostOps1_3, hostOps1_4, hostOps1_5, hostOps1_6]

/-- The program is the region followed by the host stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-- The buffers the claim speaks of: the nine arguments, and the region's result. -/
def keptRefs : List (Ref sig .tc) :=
  [main_arg0, main_arg1, main_arg2, main_arg3, main_arg4, main_arg5, main_arg6, main_arg7, main_arg8, main_v0]

/-- An operation whose one written buffer is none of those writes none of those. -/
theorem writes_one {op : HloOp τ sig (Elt F)} (y : Ref sig .tc) (h : op.writes = {Proc.devRef .tc y}) (hy : y ∉ keptRefs) :
    ∀ b ∈ keptRefs, Proc.devRef (τ := τ) .tc b ∉ op.writes := fun b hb hm => by
  rw [h, Finset.mem_singleton] at hm
  exact hy (Proc.devRef_injective _ hm ▸ hb)

theorem stretch0_writes : (hostOps1 : List (HloOp τ sig (Elt F))).Forall fun op => ∀ b ∈ keptRefs, Proc.devRef (τ := τ) .tc b ∉ op.writes :=
  ⟨writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide)⟩
theorem stretch0_fresh : (hostOps1 : List (HloOp τ sig (Elt F))).Forall fun op => op.fresh = ∅ := by
  simp only [List.Forall]; repeat' constructor
theorem stretch1_writes : (hostOps1_1 : List (HloOp τ sig (Elt F))).Forall fun op => ∀ b ∈ keptRefs, Proc.devRef (τ := τ) .tc b ∉ op.writes :=
  ⟨writes_one _ rfl (by decide), writes_one _ rfl (by decide), writes_one _ rfl (by decide), writes_one _ rfl (by decide), writes_one _ rfl (by decide), writes_one _ rfl (by decide)⟩
theorem stretch1_fresh : (hostOps1_1 : List (HloOp τ sig (Elt F))).Forall fun op => op.fresh = ∅ := by
  simp only [List.Forall]; repeat' constructor
theorem stretch2_writes : (hostOps1_2 : List (HloOp τ sig (Elt F))).Forall fun op => ∀ b ∈ keptRefs, Proc.devRef (τ := τ) .tc b ∉ op.writes :=
  ⟨writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide)⟩
theorem stretch2_fresh : (hostOps1_2 : List (HloOp τ sig (Elt F))).Forall fun op => op.fresh = ∅ := by
  simp only [List.Forall]; repeat' constructor
theorem stretch3_writes : (hostOps1_3 : List (HloOp τ sig (Elt F))).Forall fun op => ∀ b ∈ keptRefs, Proc.devRef (τ := τ) .tc b ∉ op.writes :=
  ⟨writes_one _ rfl (by decide), writes_one _ rfl (by decide), writes_one _ rfl (by decide)⟩
theorem stretch3_fresh : (hostOps1_3 : List (HloOp τ sig (Elt F))).Forall fun op => op.fresh = ∅ := by
  simp only [List.Forall]; repeat' constructor
theorem stretch4_writes : (hostOps1_4 : List (HloOp τ sig (Elt F))).Forall fun op => ∀ b ∈ keptRefs, Proc.devRef (τ := τ) .tc b ∉ op.writes :=
  ⟨writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide)⟩
theorem stretch4_fresh : (hostOps1_4 : List (HloOp τ sig (Elt F))).Forall fun op => op.fresh = ∅ := by
  simp only [List.Forall]; repeat' constructor
theorem stretch5_writes : (hostOps1_5 : List (HloOp τ sig (Elt F))).Forall fun op => ∀ b ∈ keptRefs, Proc.devRef (τ := τ) .tc b ∉ op.writes :=
  ⟨writes_one _ rfl (by decide), writes_one _ rfl (by decide), writes_one _ rfl (by decide), writes_one _ rfl (by decide)⟩
theorem stretch5_fresh : (hostOps1_5 : List (HloOp τ sig (Elt F))).Forall fun op => op.fresh = ∅ := by
  simp only [List.Forall]; repeat' constructor
theorem stretch6_writes : (hostOps1_6 : List (HloOp τ sig (Elt F))).Forall fun op => ∀ b ∈ keptRefs, Proc.devRef (τ := τ) .tc b ∉ op.writes :=
  ⟨writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide)⟩
theorem stretch6_fresh : (hostOps1_6 : List (HloOp τ sig (Elt F))).Forall fun op => op.fresh = ∅ := by
  simp only [List.Forall]; repeat' constructor

/-- No host operation after the region writes an argument or the region's result. -/
theorem tail_writes : ∀ ops ∈ (tailOps : List (List (HloOp τ sig (Elt F)))), ∀ op ∈ ops,
    ∀ b ∈ keptRefs, Proc.devRef (τ := τ) .tc b ∉ op.writes := by
  intro ops hops op hop
  simp only [List.mem_cons, List.mem_nil_iff, or_false] at hops
  rcases hops with rfl | rfl | rfl | rfl | rfl | rfl | rfl
  · exact (List.forall_iff_forall_mem.mp stretch0_writes) op hop
  · exact (List.forall_iff_forall_mem.mp stretch1_writes) op hop
  · exact (List.forall_iff_forall_mem.mp stretch2_writes) op hop
  · exact (List.forall_iff_forall_mem.mp stretch3_writes) op hop
  · exact (List.forall_iff_forall_mem.mp stretch4_writes) op hop
  · exact (List.forall_iff_forall_mem.mp stretch5_writes) op hop
  · exact (List.forall_iff_forall_mem.mp stretch6_writes) op hop

/-- The same over the flattened list. -/
theorem tail_writes_flat (b : Ref sig .tc) (hb : b ∈ keptRefs) :
    ∀ op ∈ (tailOps : List (List (HloOp τ sig (Elt F)))).flatten, Proc.devRef (τ := τ) .tc b ∉ op.writes := by
  intro op hop
  obtain ⟨ops, hops, hop'⟩ := List.mem_flatten.mp hop
  exact tail_writes ops hops op hop' b hb

/-- The windows' arrays are among those buffers. -/
theorem arr_kept : ∀ w : Fin 3, Pipeline.arrRef spec0 w ∈ keptRefs := by decide

/-- The operations after the region touch unscoped buffers of the core only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp stretch0_fresh) op hop
  · exact (List.forall_iff_forall_mem.mp stretch1_fresh) op hop
  · exact (List.forall_iff_forall_mem.mp stretch2_fresh) op hop
  · exact (List.forall_iff_forall_mem.mp stretch3_fresh) op hop
  · exact (List.forall_iff_forall_mem.mp stretch4_fresh) op hop
  · exact (List.forall_iff_forall_mem.mp stretch5_fresh) op hop
  · exact (List.forall_iff_forall_mem.mp stretch6_fresh) op hop
/-- And write no array of the region's windows. -/
theorem sfx_keeps : ∀ ops ∈ (tailOps : List (List (HloOp τ sig (Elt F)))), ∀ op ∈ ops,
    ∀ w, Proc.devRef .tc (Pipeline.arrRef spec0 w) ∉ op.writes :=
  fun ops hops op hop w => tail_writes ops hops op hop _ (arr_kept w)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point (it is fetched at every point). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- A buffer that is an argument but no window's array holds, after the host operations that follow the
    region, what the program started with: no operation writes it. -/
theorem tail_keeps_arg (dats : (p : Fin 1) → (c : Dev nD) → Dat τ (Elt F) Unit ℕ (UR sig nD τ) ℕ (cfgs p) c) (c : Dev nD)
    (b : Ref sig .tc) (hb : b ∈ keptRefs) (hw : ∀ w, Pipeline.arrRef spec0 w ≠ b) :
    Pipeline.afterTail₀ cfgs dats 0 (V0 m) (tailOps (F := F)) c b = m ((c.tc : Thread nD τ).loc b) := by
  unfold Pipeline.afterTail₀
  rw [StableHlo.after_of_forall_not_mem _ _ (tail_writes_flat b hb), Pipeline.withArrays_of_ne _ c (V0 m c) _ b hw]
  rfl

/-- In a final state meeting the launch theorem's post every argument holds what the program started with: the two
    staged inputs are never written by the region, the other arguments are touched neither by the region nor by the host
    operations. -/
theorem args_kept (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) (tailOps (F := F))) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  have rest (b : Ref sig .tc) (hb : b ∈ keptRefs) (hs : b.isScoped = false) (hw : ∀ w, (spec0 w).arr.view.ref ≠ b) :
      r.2.mem ((c.tc : Thread nD τ).loc b) = m ((c.tc : Thread nD τ).loc b) :=
    ((h c).2 b (Pipeline.mem_restRefs_of b hs hw)).trans (tail_keeps_arg m dats c b hb hw)
  ⟨((h c).1 0).trans (((dats 0 c).arrAt_in 0 rfl _).trans ((hA c 0).trans rfl)),
   rest main_arg1 (by decide) rfl (by decide),
   ((h c).1 1).trans (((dats 0 c).arrAt_in 1 rfl _).trans ((hA c 1).trans rfl)),
   rest main_arg3 (by decide) rfl (by decide),
   rest main_arg4 (by decide) rfl (by decide),
   rest main_arg5 (by decide) rfl (by decide),
   rest main_arg6 (by decide) rfl (by decide),
   rest main_arg7 (by decide) rfl (by decide),
   rest main_arg8 (by decide) rfl (by decide)⟩

/-- From a run ending in the launch theorem's post to the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) (tailOps (F := F))))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => args_kept m dats hA r h c) h

/-! ## The body's branch conditions -/

/-- The first branch's condition (the accumulator is reset), from the grid coordinates. -/
abbrev condFirst (i : grid0.Coords) : Prop := (Scalar.cmpi .ne (Scalar.extui (Scalar.cmpi .eq (BitVec.ofNat 32 (i 0).val) 0#32)) 0#32) = 1#1
/-- It holds at the first point only. -/
theorem hcondFirst : ∀ t : Fin cfg0.N, condFirst (grid0.coords t) ↔ t.val = 0 :=
  (by decide +kernel : ∀ t : Fin grid0.N, condFirst (grid0.coords t) ↔ t.val = 0)

/-- The second branch's condition (the accumulator is copied to the output). -/
abbrev condLast (i : grid0.Coords) : Prop := k0_cond2 i = 1#1
/-- It holds at the last point only. -/
theorem hcondLast : ∀ t : Fin cfg0.N, condLast (grid0.coords t) ↔ t.val = 61 :=
  (by decide +kernel : ∀ t : Fin grid0.N, condLast (grid0.coords t) ↔ t.val = 61)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last point the output window is idle and is not written back. -/
theorem idleAt0_2 : ∀ t : Fin cfg0.N, ¬condLast (grid0.coords t) → cfg0.idle 2 (grid0.coords t) = true := by decide +kernel
theorem noFlush0_2 : ∀ t : Fin cfg0.N, ¬condLast (grid0.coords t) → (cfg0.win 2).flush t = false := by decide +kernel
/-- At the last point it is live. -/
theorem liveAt0_2 : ∀ t : Fin cfg0.N, condLast (grid0.coords t) → cfg0.idle 2 (grid0.coords t) = false := by decide +kernel

/-! ## The staging and scratch memrefs at a point -/

abbrev ms0_0 (t : Fin cfg0.N) : Memref sig .tc .vmem S5632x80 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5632x80 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
/-- The scratch accumulator: a whole scoped buffer of the kernel's own. -/
abbrev scM : Memref sig .tc .vmem S1x1 .f32 := Memref.whole cc0_scratch0

/-- The region's invariant with the scratch as a memref owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Hand

end
-- ==== Proof.BitsRuns.lean ====
/-
  The kernel body, run on whole staging buffers, in each of the three cases the grid meets.
  In between the first and the last point it loads the two input blocks and the accumulator and stores the accumulator
  plus the block's sum back.  At the first point it first stores zero into the accumulator.  At the last point it then
  loads the new accumulator and stores it into the output's buffer.  In every case what a buffer ends with is a list of
  writes, and each list reads back as the value the payload names.
-/
import proofs.«126601_j68753836474735_1_alg».proof.Proof.BitsAround
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets of a whole-buffer access, as a function. -/
theorem zero_off : (![0, 0] : Fin 2 → ℕ) = fun _ => 0 := by
  funext a; fin_cases a <;> rfl

/-- A list of writes into a [1,1] buffer whose last write is the whole buffer reads back as that write's payload. -/
theorem read_last_whole (v : View sig .tc .vmem S1x1 .f32) (f : v.ty.Contents (Elt F)) (w : S1x1.Idx → Elt F .f32)
    (L : List (View.Piece (Elt F) S1x1 .f32)) :
    v.read (Elt F) (v.writes (Elt F) f ((⟨Rect.unit ![0, 0] S1x1.size inb_S1x1_S1x1_0_0, w⟩ : View.Piece (Elt F) S1x1 .f32) :: L)) = w := by
  have hcov : ∀ y : S1x1.Idx, ∃ p ∈ ((⟨Rect.unit ![0, 0] S1x1.size inb_S1x1_S1x1_0_0, w⟩ : View.Piece (Elt F) S1x1 .f32) :: L), y ∈ p.1.set :=
    fun y => ⟨(⟨Rect.unit ![0, 0] S1x1.size inb_S1x1_S1x1_0_0, w⟩ : View.Piece (Elt F) S1x1 .f32), List.mem_cons_self,
      View.mem_set_unit_zero zero_off inb_S1x1_S1x1_0_0 y⟩
  exact (View.read_writes_eq_canon v f _ hcov).trans (View.canon_cons_unit_zero zero_off inb_S1x1_S1x1_0_0 w L)

set_option maxHeartbeats 1000000 in
/-- On whole staging buffers holding the input blocks `x0`, `x1`, the output's buffer holding anything (`xi`, handed
    back as found) and the accumulator holding `xs`, the body ends with the inputs and the output's buffer as they
    were and the accumulator overwritten by writes that read back as the accumulated value. -/
theorem runMiddle (c : Dev nD) (i : grid0.Coords)
    (arg1 : Memref sig .tc .vmem S5632x80 .f32) (harg1 : arg1.IsWhole) (arg2 : Memref sig .tc .vmem S5632x80 .f32) (harg2 : arg2.IsWhole)
    (arg3 : Memref sig .tc .vmem S1x1 .f32) (harg3 : arg3.IsWhole) (arg4 : Memref sig .tc .vmem S1x1 .f32) (harg4 : arg4.IsWhole)
    (hc1 : ¬condFirst i) (hc2 : ¬condLast i) (x0 x1 : Vec F S5632x80 .f32) (xs : Vec F S1x1 .f32) :
    ∃ LS : List (View.Piece (Elt F) S1x1 .f32),
      (∀ (v : View sig .tc .vmem S1x1 .f32) (f : v.ty.Contents (Elt F)), v.read (Elt F) (v.writes (Elt F) f LS) = k0_pay2 x0 x1 xs) ∧
      ∀ (xi : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi ∗ owns (c : Thread nD τ) arg4 fullShare xs
            ∗ (iprop(owns (c : Thread nD τ) arg1 fullShare x0 ∗ owns (c : Thread nD τ) arg2 fullShare x1 ∗ owns (c : Thread nD τ) arg3 fullShare xi ∗ (∃ f, arg4.view.loc (c : Thread nD τ) ↦[arg4.view.set]{fullShare} arg4.view.writes (Elt F) f LS)) -∗ K ⟨⟩))
          ⊢ wp frame (wpE (defs₀ (F := F)) Variants.none c none) E (cc0__neg_focal_kernel i arg1 harg1 arg2 harg2 arg3 harg3 arg4 harg4) K := by
  refine ⟨?LS, ?char, fun xi E K => ?run⟩
  case run =>
    simp only [cc0__neg_focal_kernel_eq_skeleton]; unfold cc0__neg_focal_kernel_skel
    unfold owns
    iintro ⟨⟨%f0, %hf0, H0⟩, ⟨%f1, %hf1, H1⟩, ⟨%f3, %hf3, H3⟩, ⟨%fs, %hfs, HS⟩, Hk⟩
    obtain rfl := harg1.eq_unread hf0; obtain rfl := harg2.eq_unread hf1
    obtain rfl := harg3.eq_unread hf3; obtain rfl := harg4.eq_unread hfs
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H3]
    · iexists _; isplitr; · ipureintro; exact harg3.read_unread _
      iexact H3
    iexists _; iexact HS
  case char =>
    intro v f
    rw [read_last_whole]
    simp only [View.readAt_eq_ld, harg1.read_unread, harg2.read_unread, harg4.read_unread,
      View.ld_unit_zero (S := S5632x80) zero_off, View.ld_unit_zero (S := S1x1) zero_off]

set_option maxHeartbeats 1000000 in
/-- On whole staging buffers holding the input blocks, the output's buffer holding anything (handed back as found) and
    the accumulator holding anything, the body ends with the accumulator overwritten by writes that read back as the
    first block's sum added to zero. -/
theorem runFirst (c : Dev nD) (i : grid0.Coords)
    (arg1 : Memref sig .tc .vmem S5632x80 .f32) (harg1 : arg1.IsWhole) (arg2 : Memref sig .tc .vmem S5632x80 .f32) (harg2 : arg2.IsWhole)
    (arg3 : Memref sig .tc .vmem S1x1 .f32) (harg3 : arg3.IsWhole) (arg4 : Memref sig .tc .vmem S1x1 .f32) (harg4 : arg4.IsWhole)
    (hc1 : condFirst i) (hc2 : ¬condLast i) (x0 x1 : Vec F S5632x80 .f32) :
    ∃ LS : List (View.Piece (Elt F) S1x1 .f32),
      (∀ (v : View sig .tc .vmem S1x1 .f32) (f : v.ty.Contents (Elt F)), v.read (Elt F) (v.writes (Elt F) f LS) = k0_pay2 x0 x1 (k0_pay1 (F := F))) ∧
      ∀ (xi : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi ∗ (∃ d, owns (c : Thread nD τ) arg4 fullShare d)
            ∗ (iprop(owns (c : Thread nD τ) arg1 fullShare x0 ∗ owns (c : Thread nD τ) arg2 fullShare x1 ∗ owns (c : Thread nD τ) arg3 fullShare xi ∗ (∃ f, arg4.view.loc (c : Thread nD τ) ↦[arg4.view.set]{fullShare} arg4.view.writes (Elt F) f LS)) -∗ K ⟨⟩))
          ⊢ wp frame (wpE (defs₀ (F := F)) Variants.none c none) E (cc0__neg_focal_kernel i arg1 harg1 arg2 harg2 arg3 harg3 arg4 harg4) K := by
  refine ⟨?LS, ?char, fun xi E K => ?run⟩
  case run =>
    simp only [cc0__neg_focal_kernel_eq_skeleton]; unfold cc0__neg_focal_kernel_skel
    unfold owns
    iintro ⟨⟨%f0, %hf0, H0⟩, ⟨%f1, %hf1, H1⟩, ⟨%f3, %hf3, H3⟩, ⟨%ds, %fs, -, HS⟩, Hk⟩
    obtain rfl := harg1.eq_unread hf0; obtain rfl := harg2.eq_unread hf1
    obtain rfl := harg3.eq_unread hf3
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H3]
    · iexists _; isplitr; · ipureintro; exact harg3.read_unread _
      iexact H3
    iexists _; iexact HS
  case char =>
    intro v f
    sl_unfold_run_names
    rw [read_last_whole, View.readCov_unit_zero _ zero_off]
    simp only [View.readAt_eq_ld, harg1.read_unread, harg2.read_unread,
      View.ld_unit_zero (S := S5632x80) zero_off, View.ld_unit_zero (S := S1x1) zero_off]

set_option maxHeartbeats 1000000 in
/-- On whole staging buffers holding the input blocks, the output's buffer holding anything and the accumulator holding
    `xs`, the body ends with both the accumulator and the output's buffer overwritten by writes that read back as the
    accumulated value. -/
theorem runLast (c : Dev nD) (i : grid0.Coords)
    (arg1 : Memref sig .tc .vmem S5632x80 .f32) (harg1 : arg1.IsWhole) (arg2 : Memref sig .tc .vmem S5632x80 .f32) (harg2 : arg2.IsWhole)
    (arg3 : Memref sig .tc .vmem S1x1 .f32) (harg3 : arg3.IsWhole) (arg4 : Memref sig .tc .vmem S1x1 .f32) (harg4 : arg4.IsWhole)
    (hc1 : ¬condFirst i) (hc2 : condLast i) (x0 x1 : Vec F S5632x80 .f32) (xs : Vec F S1x1 .f32) :
    ∃ (L3 LS : List (View.Piece (Elt F) S1x1 .f32)),
      (∀ (v : View sig .tc .vmem S1x1 .f32) (f : v.ty.Contents (Elt F)), v.read (Elt F) (v.writes (Elt F) f L3) = k0_pay2 x0 x1 xs) ∧
      (∀ (v : View sig .tc .vmem S1x1 .f32) (f : v.ty.Contents (Elt F)), v.read (Elt F) (v.writes (Elt F) f LS) = k0_pay2 x0 x1 xs) ∧
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f LS)) -∗ K ⟨⟩))
          ⊢ wp frame (wpE (defs₀ (F := F)) Variants.none c none) E (cc0__neg_focal_kernel i arg1 harg1 arg2 harg2 arg3 harg3 arg4 harg4) K := by
  refine ⟨?L3, ?LS, ?char3, ?char, fun E K => ?run⟩
  case run =>
    simp only [cc0__neg_focal_kernel_eq_skeleton]; unfold cc0__neg_focal_kernel_skel
    unfold owns
    iintro ⟨⟨%f0, %hf0, H0⟩, ⟨%f1, %hf1, H1⟩, ⟨%d3, %f3, -, H3⟩, ⟨%fs, %hfs, HS⟩, Hk⟩
    obtain rfl := harg1.eq_unread hf0; obtain rfl := harg2.eq_unread hf1
    obtain rfl := harg4.eq_unread hfs
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H3]; · iexists _; iexact H3
    iexists _; iexact HS
  case char3 =>
    intro v f
    sl_unfold_run_names
    rw [read_last_whole, View.readCov_unit_zero _ zero_off]
    simp only [View.readAt_eq_ld, harg1.read_unread, harg2.read_unread, harg4.read_unread,
      View.ld_unit_zero (S := S5632x80) zero_off, View.ld_unit_zero (S := S1x1) zero_off]
  case char =>
    intro v f
    sl_unfold_run_names
    rw [read_last_whole]
    simp only [View.readAt_eq_ld, harg1.read_unread, harg2.read_unread, harg4.read_unread,
      View.ld_unit_zero (S := S5632x80) zero_off, View.ld_unit_zero (S := S1x1) zero_off]

end Cert.Kernel.Hand

end
-- ==== Proof.BitsFrame.lean ====
/-
  The region's run, point by point.  The accumulator after point n is the block sum of point n added to
  the accumulator after point n-1, starting from zero at the first point; the output window's buffer is
  written only at the last point, with the accumulator's value.  With these as the proof data, the body
  meets its obligation at every point (three cases: first, last, in between), the launch theorem gives
  the run of the whole program — the region, then the host operations — and the arguments end unchanged.
-/
import proofs.«126601_j68753836474735_1_alg».proof.Proof.BitsRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the accumulator holds after each point -/

/-- The accumulator after the body at point `n`. -/
def acc (c : Dev nD) : (n : ℕ) → n < cfg0.N → Vec F S1x1 .f32
  | 0, hn => k0_pay2 (iblk m c 0 ⟨0, hn⟩) (iblk m c 1 ⟨0, hn⟩) (k0_pay1 (F := F))
  | n + 1, hn => k0_pay2 (iblk m c 0 ⟨n + 1, hn⟩) (iblk m c 1 ⟨n + 1, hn⟩) (acc c n (Nat.lt_of_succ_lt hn))

theorem acc_zero (c : Dev nD) (t : Fin cfg0.N) (ht : t.val = 0) :
    acc m c t.val t.isLt = k0_pay2 (iblk m c 0 t) (iblk m c 1 t) (k0_pay1 (F := F)) := by
  obtain ⟨n, hn⟩ := t
  cases n with
  | zero => rfl
  | succ n => exact absurd ht (Nat.succ_ne_zero n)

theorem acc_pos (c : Dev nD) (t : Fin cfg0.N) (ht : t.val ≠ 0) :
    acc m c t.val t.isLt = k0_pay2 (iblk m c 0 t) (iblk m c 1 t) (acc m c (t.val - 1) (Nat.lt_of_le_of_lt (Nat.sub_le _ _) t.isLt)) := by
  obtain ⟨n, hn⟩ := t
  cases n with
  | zero => exact absurd rfl ht
  | succ n => rfl

/-- The region's invariant before position `n`: before the first point the scratch holds anything; afterwards it holds
    the accumulator the point before left. -/
def PhiS (c : Dev nD) : (n : ℕ) → n ≤ cfg0.N → sProp 𝕄
  | 0, _ => Pipeline.ΦA spec0 c
  | n + 1, hn => iprop(iprop(owns (c : Thread nD τ) scM fullShare (acc m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (acc m c n hn)) ∗ (∃ r, prngReg c r)) := rfl

theorem PhiS_pos (c : Dev nD) (n : ℕ) (h : n ≤ cfg0.N) (hz : n ≠ 0) :
    PhiS m c n h = iprop(iprop(owns (c : Thread nD τ) scM fullShare (acc m c (n - 1) (by omega))) ∗ (∃ r, prngReg c r)) := by
  cases n with
  | zero => exact absurd rfl hz
  | succ n => rfl

/-! ## The proof data -/

/-- The arrays as the region finds them; after the body each input's buffer at its block and the output's at the
    accumulator; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => acc m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = acc m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point.  At the first point the scratch is handed over at anything and comes back at the first
    block sum; at a later point it is handed over at the accumulator the point before left and comes back at the next one;
    at the last point the output's buffer also comes back holding the accumulator; elsewhere it is handed back untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 62 := lt_of_lt_of_eq t.isLt (show cfg0.N = 62 from N_0)
  by_cases hz : t.val = 0
  · have hl : ¬condLast (grid0.coords t) := fun h => by have := (hcondLast t).mp h; omega
    have hf : condFirst (grid0.coords t) := (hcondFirst t).mpr hz
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [Dat.leavesExact_idle (dats m 0 c) 2 t (idleAt0_2 t hl) (noFlush0_2 t hl)]
    rw [acc_zero m c t hz, PhiS_castSucc m c t, PhiS_zero m c _ _ hz, PhiA0_eq]
    obtain ⟨LS, hchar, hrun⟩ := runFirst c (grid0.coords t) (ms0_0 t) (hs0_0 t) (ms0_1 t) (hs0_1 t) (ms0_2 t) (hs0_2 t) scM (Memref.isWhole_whole _) hf hl (iblk m c 0 t) (iblk m c 1 t)
    iintro ⟨⟨HS, Hg⟩, Ho, ⟨%d0, H0⟩, ⟨%d1, H1⟩, ⟨%d2, H2⟩⟩
    iapply (hrun _ Set.univ _)
    isplitl [H0]; · iexact H0
    isplitl [H1]; · iexact H1
    isplitl [H2]; · iexact H2
    isplitl [HS]; · iexact HS
    iintro ⟨H0, H1, H2, ⟨%es, HS⟩⟩
    isplitl [HS Hg]
    · isplitl [HS]
      · unfold owns; iexists _; isplitr
        swap; · iexact HS
        ipureintro; exact hchar _ _
      iexact Hg
    isplitl [Ho]; · iexact Ho
    isplitl [H0]; · iexact H0
    isplitl [H1]; · iexact H1
    iexists _; iexact H2
  have hf : ¬condFirst (grid0.coords t) := fun h => hz ((hcondFirst t).mp h)
  by_cases h61 : t.val = 61
  · have hl : condLast (grid0.coords t) := (hcondLast t).mpr h61
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t hl], after0_2]
    rw [acc_pos m c t hz, PhiS_castSucc m c t, PhiS_pos m c _ _ hz]
    obtain ⟨L3, LS, hchar3, hchar, hrun⟩ := runLast c (grid0.coords t) (ms0_0 t) (hs0_0 t) (ms0_1 t) (hs0_1 t) (ms0_2 t) (hs0_2 t) scM (Memref.isWhole_whole _) hf hl (iblk m c 0 t) (iblk m c 1 t)
      (acc m c (t.val - 1) (Nat.lt_of_le_of_lt (Nat.sub_le _ _) t.isLt))
    iintro ⟨⟨HS, Hg⟩, Ho, ⟨%d0, H0⟩, ⟨%d1, H1⟩, ⟨%d2, H2⟩⟩
    iapply (hrun Set.univ _)
    isplitl [H0]; · iexact H0
    isplitl [H1]; · iexact H1
    isplitl [H2]; · iexists _; iexact H2
    isplitl [HS]; · iexact HS
    iintro ⟨H0, H1, ⟨%e3, H2⟩, ⟨%es, HS⟩⟩
    isplitl [HS Hg]
    · isplitl [HS]
      · unfold owns; iexists _; isplitr
        swap; · iexact HS
        ipureintro; exact hchar _ _
      iexact Hg
    isplitl [Ho]; · iexact Ho
    isplitl [H0]; · iexact H0
    isplitl [H1]; · iexact H1
    unfold owns; iexists _; isplitr
    swap; · iexact H2
    ipureintro; exact hchar3 _ _
  · have hl : ¬condLast (grid0.coords t) := fun h => h61 ((hcondLast t).mp h)
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [Dat.leavesExact_idle (dats m 0 c) 2 t (idleAt0_2 t hl) (noFlush0_2 t hl)]
    rw [acc_pos m c t hz, PhiS_castSucc m c t, PhiS_pos m c _ _ hz]
    obtain ⟨LS, hchar, hrun⟩ := runMiddle c (grid0.coords t) (ms0_0 t) (hs0_0 t) (ms0_1 t) (hs0_1 t) (ms0_2 t) (hs0_2 t) scM (Memref.isWhole_whole _) hf hl (iblk m c 0 t) (iblk m c 1 t)
      (acc m c (t.val - 1) (Nat.lt_of_le_of_lt (Nat.sub_le _ _) t.isLt))
    iintro ⟨⟨HS, Hg⟩, Ho, ⟨%d0, H0⟩, ⟨%d1, H1⟩, ⟨%d2, H2⟩⟩
    iapply (hrun _ Set.univ _)
    isplitl [H0]; · iexact H0
    isplitl [H1]; · iexact H1
    isplitl [H2]; · iexact H2
    isplitl [HS]; · iexact HS
    iintro ⟨H0, H1, H2, ⟨%es, HS⟩⟩
    isplitl [HS Hg]
    · isplitl [HS]
      · unfold owns; iexists _; isplitr
        swap; · iexact HS
        ipureintro; exact hchar _ _
      iexact Hg
    isplitl [Ho]; · iexact Ho
    isplitl [H0]; · iexact H0
    isplitl [H1]; · iexact H1
    iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives that back: the accumulator's value is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 62 := N_0; omega)

/-! ## The run and the frame -/

set_option backward.isDefEq.respectTransparency.types false in
/-- From any memory with zero counters every weakly fair execution of the program terminates, with every window's
    array at what the proof data say and every other unscoped buffer as the host operations after the region leave it. -/
theorem run_main : θ_run defs (onTc (τ := τ) (main (F := F))) (s₀ m ρ) (Pipeline.FramePost cfgs (dats m) 0 (Pipeline.afterTail₀ cfgs (dats m) 0 (V0 m) (tailOps (F := F)))) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The program runs to the end, faults nowhere, and leaves its nine arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Hand

end
-- ==== Proof.IdealAround.lean ====
/-
  The host program around the one kernel region: the region comes first, and 175 host operations
  follow it.  This module says what the region finds in each buffer (the memory the program starts
  from: no host operation precedes the region), that the program is the region followed by the seven
  stretches of host operations, that each of those operations writes exactly one buffer which is
  neither an argument nor the region's result, and hence that a run ending in the launch theorem's
  post leaves all nine arguments as they were.  It also decides, over the 62 grid points, when the
  body's two branches are taken (the first point resets the accumulator, the last one copies it out)
  and where the output window is idle.
-/
import proofs.«126601_j68753836474735_1_alg».proof.Proof.Gen.KernelIdeal.Launch
import proofs.«126601_j68753836474735_1_alg».proof.Proof.Gen.KernelIdeal.Skeleton
import proofs.«126601_j68753836474735_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- What each buffer of core `c` holds when the region is entered: the initial memory. -/
abbrev V0 (c : Dev nD) : Valuation τ sig (Elt F) := StableHlo.after (List.flatten []) (fun b => m (c, b))
/-- The same, read at a reference of the core. -/
abbrev V (c : Dev nD) (b : Ref sig .tc) : Buf (Elt F) ((c : Thread nD τ).loc b) := V0 m c (Proc.devRef .tc b)

/-- The host operations after the region, stretch by stretch, in program order. -/
abbrev tailOps : List (List (HloOp τ sig (Elt F))) :=
  [hostOps1, hostOps1_1, hostOps1_2, hostOps1_3, hostOps1_4, hostOps1_5, hostOps1_6]

/-- The program is the region followed by the host stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-- The buffers the claim speaks of: the nine arguments, and the region's result. -/
def keptRefs : List (Ref sig .tc) :=
  [main_arg0, main_arg1, main_arg2, main_arg3, main_arg4, main_arg5, main_arg6, main_arg7, main_arg8, main_v0]

/-- An operation whose one written buffer is none of those writes none of those. -/
theorem writes_one {op : HloOp τ sig (Elt F)} (y : Ref sig .tc) (h : op.writes = {Proc.devRef .tc y}) (hy : y ∉ keptRefs) :
    ∀ b ∈ keptRefs, Proc.devRef (τ := τ) .tc b ∉ op.writes := fun b hb hm => by
  rw [h, Finset.mem_singleton] at hm
  exact hy (Proc.devRef_injective _ hm ▸ hb)

theorem stretch0_writes : (hostOps1 : List (HloOp τ sig (Elt F))).Forall fun op => ∀ b ∈ keptRefs, Proc.devRef (τ := τ) .tc b ∉ op.writes :=
  ⟨writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide)⟩
theorem stretch0_fresh : (hostOps1 : List (HloOp τ sig (Elt F))).Forall fun op => op.fresh = ∅ := by
  simp only [List.Forall]; repeat' constructor
theorem stretch1_writes : (hostOps1_1 : List (HloOp τ sig (Elt F))).Forall fun op => ∀ b ∈ keptRefs, Proc.devRef (τ := τ) .tc b ∉ op.writes :=
  ⟨writes_one _ rfl (by decide), writes_one _ rfl (by decide), writes_one _ rfl (by decide), writes_one _ rfl (by decide), writes_one _ rfl (by decide), writes_one _ rfl (by decide)⟩
theorem stretch1_fresh : (hostOps1_1 : List (HloOp τ sig (Elt F))).Forall fun op => op.fresh = ∅ := by
  simp only [List.Forall]; repeat' constructor
theorem stretch2_writes : (hostOps1_2 : List (HloOp τ sig (Elt F))).Forall fun op => ∀ b ∈ keptRefs, Proc.devRef (τ := τ) .tc b ∉ op.writes :=
  ⟨writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide)⟩
theorem stretch2_fresh : (hostOps1_2 : List (HloOp τ sig (Elt F))).Forall fun op => op.fresh = ∅ := by
  simp only [List.Forall]; repeat' constructor
theorem stretch3_writes : (hostOps1_3 : List (HloOp τ sig (Elt F))).Forall fun op => ∀ b ∈ keptRefs, Proc.devRef (τ := τ) .tc b ∉ op.writes :=
  ⟨writes_one _ rfl (by decide), writes_one _ rfl (by decide), writes_one _ rfl (by decide)⟩
theorem stretch3_fresh : (hostOps1_3 : List (HloOp τ sig (Elt F))).Forall fun op => op.fresh = ∅ := by
  simp only [List.Forall]; repeat' constructor
theorem stretch4_writes : (hostOps1_4 : List (HloOp τ sig (Elt F))).Forall fun op => ∀ b ∈ keptRefs, Proc.devRef (τ := τ) .tc b ∉ op.writes :=
  ⟨writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide)⟩
theorem stretch4_fresh : (hostOps1_4 : List (HloOp τ sig (Elt F))).Forall fun op => op.fresh = ∅ := by
  simp only [List.Forall]; repeat' constructor
theorem stretch5_writes : (hostOps1_5 : List (HloOp τ sig (Elt F))).Forall fun op => ∀ b ∈ keptRefs, Proc.devRef (τ := τ) .tc b ∉ op.writes :=
  ⟨writes_one _ rfl (by decide), writes_one _ rfl (by decide), writes_one _ rfl (by decide), writes_one _ rfl (by decide)⟩
theorem stretch5_fresh : (hostOps1_5 : List (HloOp τ sig (Elt F))).Forall fun op => op.fresh = ∅ := by
  simp only [List.Forall]; repeat' constructor
theorem stretch6_writes : (hostOps1_6 : List (HloOp τ sig (Elt F))).Forall fun op => ∀ b ∈ keptRefs, Proc.devRef (τ := τ) .tc b ∉ op.writes :=
  ⟨writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide), writes_one _ rfl (by decide)⟩
theorem stretch6_fresh : (hostOps1_6 : List (HloOp τ sig (Elt F))).Forall fun op => op.fresh = ∅ := by
  simp only [List.Forall]; repeat' constructor

/-- No host operation after the region writes an argument or the region's result. -/
theorem tail_writes : ∀ ops ∈ (tailOps : List (List (HloOp τ sig (Elt F)))), ∀ op ∈ ops,
    ∀ b ∈ keptRefs, Proc.devRef (τ := τ) .tc b ∉ op.writes := by
  intro ops hops op hop
  simp only [List.mem_cons, List.mem_nil_iff, or_false] at hops
  rcases hops with rfl | rfl | rfl | rfl | rfl | rfl | rfl
  · exact (List.forall_iff_forall_mem.mp stretch0_writes) op hop
  · exact (List.forall_iff_forall_mem.mp stretch1_writes) op hop
  · exact (List.forall_iff_forall_mem.mp stretch2_writes) op hop
  · exact (List.forall_iff_forall_mem.mp stretch3_writes) op hop
  · exact (List.forall_iff_forall_mem.mp stretch4_writes) op hop
  · exact (List.forall_iff_forall_mem.mp stretch5_writes) op hop
  · exact (List.forall_iff_forall_mem.mp stretch6_writes) op hop

/-- The same over the flattened list. -/
theorem tail_writes_flat (b : Ref sig .tc) (hb : b ∈ keptRefs) :
    ∀ op ∈ (tailOps : List (List (HloOp τ sig (Elt F)))).flatten, Proc.devRef (τ := τ) .tc b ∉ op.writes := by
  intro op hop
  obtain ⟨ops, hops, hop'⟩ := List.mem_flatten.mp hop
  exact tail_writes ops hops op hop' b hb

/-- The windows' arrays are among those buffers. -/
theorem arr_kept : ∀ w : Fin 3, Pipeline.arrRef spec0 w ∈ keptRefs := by decide

/-- The operations after the region touch unscoped buffers of the core only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp stretch0_fresh) op hop
  · exact (List.forall_iff_forall_mem.mp stretch1_fresh) op hop
  · exact (List.forall_iff_forall_mem.mp stretch2_fresh) op hop
  · exact (List.forall_iff_forall_mem.mp stretch3_fresh) op hop
  · exact (List.forall_iff_forall_mem.mp stretch4_fresh) op hop
  · exact (List.forall_iff_forall_mem.mp stretch5_fresh) op hop
  · exact (List.forall_iff_forall_mem.mp stretch6_fresh) op hop
/-- And write no array of the region's windows. -/
theorem sfx_keeps : ∀ ops ∈ (tailOps : List (List (HloOp τ sig (Elt F)))), ∀ op ∈ ops,
    ∀ w, Proc.devRef .tc (Pipeline.arrRef spec0 w) ∉ op.writes :=
  fun ops hops op hop w => tail_writes ops hops op hop _ (arr_kept w)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point (it is fetched at every point). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- A buffer that is an argument but no window's array holds, after the host operations that follow the
    region, what the program started with: no operation writes it. -/
theorem tail_keeps_arg (dats : (p : Fin 1) → (c : Dev nD) → Dat τ (Elt F) Unit ℕ (UR sig nD τ) ℕ (cfgs p) c) (c : Dev nD)
    (b : Ref sig .tc) (hb : b ∈ keptRefs) (hw : ∀ w, Pipeline.arrRef spec0 w ≠ b) :
    Pipeline.afterTail₀ cfgs dats 0 (V0 m) (tailOps (F := F)) c b = m ((c.tc : Thread nD τ).loc b) := by
  unfold Pipeline.afterTail₀
  rw [StableHlo.after_of_forall_not_mem _ _ (tail_writes_flat b hb), Pipeline.withArrays_of_ne _ c (V0 m c) _ b hw]
  rfl

/-- In a final state meeting the launch theorem's post every argument holds what the program started with: the two
    staged inputs are never written by the region, the other arguments are touched neither by the region nor by the host
    operations. -/
theorem args_kept (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) (tailOps (F := F))) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  have rest (b : Ref sig .tc) (hb : b ∈ keptRefs) (hs : b.isScoped = false) (hw : ∀ w, (spec0 w).arr.view.ref ≠ b) :
      r.2.mem ((c.tc : Thread nD τ).loc b) = m ((c.tc : Thread nD τ).loc b) :=
    ((h c).2 b (Pipeline.mem_restRefs_of b hs hw)).trans (tail_keeps_arg m dats c b hb hw)
  ⟨((h c).1 0).trans (((dats 0 c).arrAt_in 0 rfl _).trans ((hA c 0).trans rfl)),
   rest main_arg1 (by decide) rfl (by decide),
   ((h c).1 1).trans (((dats 0 c).arrAt_in 1 rfl _).trans ((hA c 1).trans rfl)),
   rest main_arg3 (by decide) rfl (by decide),
   rest main_arg4 (by decide) rfl (by decide),
   rest main_arg5 (by decide) rfl (by decide),
   rest main_arg6 (by decide) rfl (by decide),
   rest main_arg7 (by decide) rfl (by decide),
   rest main_arg8 (by decide) rfl (by decide)⟩

/-- From a run ending in the launch theorem's post to the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) (tailOps (F := F))))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => args_kept m dats hA r h c) h

/-! ## The body's branch conditions -/

/-- The first branch's condition (the accumulator is reset), from the grid coordinates. -/
abbrev condFirst (i : grid0.Coords) : Prop := (Scalar.cmpi .ne (Scalar.extui (Scalar.cmpi .eq (BitVec.ofNat 32 (i 0).val) 0#32)) 0#32) = 1#1
/-- It holds at the first point only. -/
theorem hcondFirst : ∀ t : Fin cfg0.N, condFirst (grid0.coords t) ↔ t.val = 0 :=
  (by decide +kernel : ∀ t : Fin grid0.N, condFirst (grid0.coords t) ↔ t.val = 0)

/-- The second branch's condition (the accumulator is copied to the output). -/
abbrev condLast (i : grid0.Coords) : Prop := k0_cond2 i = 1#1
/-- It holds at the last point only. -/
theorem hcondLast : ∀ t : Fin cfg0.N, condLast (grid0.coords t) ↔ t.val = 61 :=
  (by decide +kernel : ∀ t : Fin grid0.N, condLast (grid0.coords t) ↔ t.val = 61)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last point the output window is idle and is not written back. -/
theorem idleAt0_2 : ∀ t : Fin cfg0.N, ¬condLast (grid0.coords t) → cfg0.idle 2 (grid0.coords t) = true := by decide +kernel
theorem noFlush0_2 : ∀ t : Fin cfg0.N, ¬condLast (grid0.coords t) → (cfg0.win 2).flush t = false := by decide +kernel
/-- At the last point it is live. -/
theorem liveAt0_2 : ∀ t : Fin cfg0.N, condLast (grid0.coords t) → cfg0.idle 2 (grid0.coords t) = false := by decide +kernel

/-! ## The staging and scratch memrefs at a point -/

abbrev ms0_0 (t : Fin cfg0.N) : Memref sig .tc .vmem S5632x80 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5632x80 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
/-- The scratch accumulator: a whole scoped buffer of the kernel's own. -/
abbrev scM : Memref sig .tc .vmem S1x1 .f32 := Memref.whole cc0_scratch0

/-- The region's invariant with the scratch as a memref owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Hand

end
-- ==== Proof.IdealRuns.lean ====
/-
  The kernel body, run on whole staging buffers, in each of the three cases the grid meets.
  In between the first and the last point it loads the two input blocks and the accumulator and stores the accumulator
  plus the block's sum back.  At the first point it first stores zero into the accumulator.  At the last point it then
  loads the new accumulator and stores it into the output's buffer.  In every case what a buffer ends with is a list of
  writes, and each list reads back as the value the payload names.
-/
import proofs.«126601_j68753836474735_1_alg».proof.Proof.IdealAround
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets of a whole-buffer access, as a function. -/
theorem zero_off : (![0, 0] : Fin 2 → ℕ) = fun _ => 0 := by
  funext a; fin_cases a <;> rfl

/-- A list of writes into a [1,1] buffer whose last write is the whole buffer reads back as that write's payload. -/
theorem read_last_whole (v : View sig .tc .vmem S1x1 .f32) (f : v.ty.Contents (Elt F)) (w : S1x1.Idx → Elt F .f32)
    (L : List (View.Piece (Elt F) S1x1 .f32)) :
    v.read (Elt F) (v.writes (Elt F) f ((⟨Rect.unit ![0, 0] S1x1.size inb_S1x1_S1x1_0_0, w⟩ : View.Piece (Elt F) S1x1 .f32) :: L)) = w := by
  have hcov : ∀ y : S1x1.Idx, ∃ p ∈ ((⟨Rect.unit ![0, 0] S1x1.size inb_S1x1_S1x1_0_0, w⟩ : View.Piece (Elt F) S1x1 .f32) :: L), y ∈ p.1.set :=
    fun y => ⟨(⟨Rect.unit ![0, 0] S1x1.size inb_S1x1_S1x1_0_0, w⟩ : View.Piece (Elt F) S1x1 .f32), List.mem_cons_self,
      View.mem_set_unit_zero zero_off inb_S1x1_S1x1_0_0 y⟩
  exact (View.read_writes_eq_canon v f _ hcov).trans (View.canon_cons_unit_zero zero_off inb_S1x1_S1x1_0_0 w L)

set_option maxHeartbeats 1000000 in
/-- On whole staging buffers holding the input blocks `x0`, `x1`, the output's buffer holding anything (`xi`, handed
    back as found) and the accumulator holding `xs`, the body ends with the inputs and the output's buffer as they
    were and the accumulator overwritten by writes that read back as the accumulated value. -/
theorem runMiddle (c : Dev nD) (i : grid0.Coords)
    (arg1 : Memref sig .tc .vmem S5632x80 .f32) (harg1 : arg1.IsWhole) (arg2 : Memref sig .tc .vmem S5632x80 .f32) (harg2 : arg2.IsWhole)
    (arg3 : Memref sig .tc .vmem S1x1 .f32) (harg3 : arg3.IsWhole) (arg4 : Memref sig .tc .vmem S1x1 .f32) (harg4 : arg4.IsWhole)
    (hc1 : ¬condFirst i) (hc2 : ¬condLast i) (x0 x1 : Vec F S5632x80 .f32) (xs : Vec F S1x1 .f32) :
    ∃ LS : List (View.Piece (Elt F) S1x1 .f32),
      (∀ (v : View sig .tc .vmem S1x1 .f32) (f : v.ty.Contents (Elt F)), v.read (Elt F) (v.writes (Elt F) f LS) = k0_pay2 x0 x1 xs) ∧
      ∀ (xi : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi ∗ owns (c : Thread nD τ) arg4 fullShare xs
            ∗ (iprop(owns (c : Thread nD τ) arg1 fullShare x0 ∗ owns (c : Thread nD τ) arg2 fullShare x1 ∗ owns (c : Thread nD τ) arg3 fullShare xi ∗ (∃ f, arg4.view.loc (c : Thread nD τ) ↦[arg4.view.set]{fullShare} arg4.view.writes (Elt F) f LS)) -∗ K ⟨⟩))
          ⊢ wp frame (wpE (defs₀ (F := F)) Variants.none c none) E (cc0__neg_focal_kernel i arg1 harg1 arg2 harg2 arg3 harg3 arg4 harg4) K := by
  refine ⟨?LS, ?char, fun xi E K => ?run⟩
  case run =>
    simp only [cc0__neg_focal_kernel_eq_skeleton]; unfold cc0__neg_focal_kernel_skel
    unfold owns
    iintro ⟨⟨%f0, %hf0, H0⟩, ⟨%f1, %hf1, H1⟩, ⟨%f3, %hf3, H3⟩, ⟨%fs, %hfs, HS⟩, Hk⟩
    obtain rfl := harg1.eq_unread hf0; obtain rfl := harg2.eq_unread hf1
    obtain rfl := harg3.eq_unread hf3; obtain rfl := harg4.eq_unread hfs
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H3]
    · iexists _; isplitr; · ipureintro; exact harg3.read_unread _
      iexact H3
    iexists _; iexact HS
  case char =>
    intro v f
    rw [read_last_whole]
    simp only [View.readAt_eq_ld, harg1.read_unread, harg2.read_unread, harg4.read_unread,
      View.ld_unit_zero (S := S5632x80) zero_off, View.ld_unit_zero (S := S1x1) zero_off]

set_option maxHeartbeats 1000000 in
/-- On whole staging buffers holding the input blocks, the output's buffer holding anything (handed back as found) and
    the accumulator holding anything, the body ends with the accumulator overwritten by writes that read back as the
    first block's sum added to zero. -/
theorem runFirst (c : Dev nD) (i : grid0.Coords)
    (arg1 : Memref sig .tc .vmem S5632x80 .f32) (harg1 : arg1.IsWhole) (arg2 : Memref sig .tc .vmem S5632x80 .f32) (harg2 : arg2.IsWhole)
    (arg3 : Memref sig .tc .vmem S1x1 .f32) (harg3 : arg3.IsWhole) (arg4 : Memref sig .tc .vmem S1x1 .f32) (harg4 : arg4.IsWhole)
    (hc1 : condFirst i) (hc2 : ¬condLast i) (x0 x1 : Vec F S5632x80 .f32) :
    ∃ LS : List (View.Piece (Elt F) S1x1 .f32),
      (∀ (v : View sig .tc .vmem S1x1 .f32) (f : v.ty.Contents (Elt F)), v.read (Elt F) (v.writes (Elt F) f LS) = k0_pay2 x0 x1 (k0_pay1 (F := F))) ∧
      ∀ (xi : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi ∗ (∃ d, owns (c : Thread nD τ) arg4 fullShare d)
            ∗ (iprop(owns (c : Thread nD τ) arg1 fullShare x0 ∗ owns (c : Thread nD τ) arg2 fullShare x1 ∗ owns (c : Thread nD τ) arg3 fullShare xi ∗ (∃ f, arg4.view.loc (c : Thread nD τ) ↦[arg4.view.set]{fullShare} arg4.view.writes (Elt F) f LS)) -∗ K ⟨⟩))
          ⊢ wp frame (wpE (defs₀ (F := F)) Variants.none c none) E (cc0__neg_focal_kernel i arg1 harg1 arg2 harg2 arg3 harg3 arg4 harg4) K := by
  refine ⟨?LS, ?char, fun xi E K => ?run⟩
  case run =>
    simp only [cc0__neg_focal_kernel_eq_skeleton]; unfold cc0__neg_focal_kernel_skel
    unfold owns
    iintro ⟨⟨%f0, %hf0, H0⟩, ⟨%f1, %hf1, H1⟩, ⟨%f3, %hf3, H3⟩, ⟨%ds, %fs, -, HS⟩, Hk⟩
    obtain rfl := harg1.eq_unread hf0; obtain rfl := harg2.eq_unread hf1
    obtain rfl := harg3.eq_unread hf3
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H3]
    · iexists _; isplitr; · ipureintro; exact harg3.read_unread _
      iexact H3
    iexists _; iexact HS
  case char =>
    intro v f
    sl_unfold_run_names
    rw [read_last_whole, View.readCov_unit_zero _ zero_off]
    simp only [View.readAt_eq_ld, harg1.read_unread, harg2.read_unread,
      View.ld_unit_zero (S := S5632x80) zero_off, View.ld_unit_zero (S := S1x1) zero_off]

set_option maxHeartbeats 1000000 in
/-- On whole staging buffers holding the input blocks, the output's buffer holding anything and the accumulator holding
    `xs`, the body ends with both the accumulator and the output's buffer overwritten by writes that read back as the
    accumulated value. -/
theorem runLast (c : Dev nD) (i : grid0.Coords)
    (arg1 : Memref sig .tc .vmem S5632x80 .f32) (harg1 : arg1.IsWhole) (arg2 : Memref sig .tc .vmem S5632x80 .f32) (harg2 : arg2.IsWhole)
    (arg3 : Memref sig .tc .vmem S1x1 .f32) (harg3 : arg3.IsWhole) (arg4 : Memref sig .tc .vmem S1x1 .f32) (harg4 : arg4.IsWhole)
    (hc1 : ¬condFirst i) (hc2 : condLast i) (x0 x1 : Vec F S5632x80 .f32) (xs : Vec F S1x1 .f32) :
    ∃ (L3 LS : List (View.Piece (Elt F) S1x1 .f32)),
      (∀ (v : View sig .tc .vmem S1x1 .f32) (f : v.ty.Contents (Elt F)), v.read (Elt F) (v.writes (Elt F) f L3) = k0_pay2 x0 x1 xs) ∧
      (∀ (v : View sig .tc .vmem S1x1 .f32) (f : v.ty.Contents (Elt F)), v.read (Elt F) (v.writes (Elt F) f LS) = k0_pay2 x0 x1 xs) ∧
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f LS)) -∗ K ⟨⟩))
          ⊢ wp frame (wpE (defs₀ (F := F)) Variants.none c none) E (cc0__neg_focal_kernel i arg1 harg1 arg2 harg2 arg3 harg3 arg4 harg4) K := by
  refine ⟨?L3, ?LS, ?char3, ?char, fun E K => ?run⟩
  case run =>
    simp only [cc0__neg_focal_kernel_eq_skeleton]; unfold cc0__neg_focal_kernel_skel
    unfold owns
    iintro ⟨⟨%f0, %hf0, H0⟩, ⟨%f1, %hf1, H1⟩, ⟨%d3, %f3, -, H3⟩, ⟨%fs, %hfs, HS⟩, Hk⟩
    obtain rfl := harg1.eq_unread hf0; obtain rfl := harg2.eq_unread hf1
    obtain rfl := harg4.eq_unread hfs
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H3]; · iexists _; iexact H3
    iexists _; iexact HS
  case char3 =>
    intro v f
    sl_unfold_run_names
    rw [read_last_whole, View.readCov_unit_zero _ zero_off]
    simp only [View.readAt_eq_ld, harg1.read_unread, harg2.read_unread, harg4.read_unread,
      View.ld_unit_zero (S := S5632x80) zero_off, View.ld_unit_zero (S := S1x1) zero_off]
  case char =>
    intro v f
    sl_unfold_run_names
    rw [read_last_whole]
    simp only [View.readAt_eq_ld, harg1.read_unread, harg2.read_unread, harg4.read_unread,
      View.ld_unit_zero (S := S5632x80) zero_off, View.ld_unit_zero (S := S1x1) zero_off]

end Cert.KernelIdeal.Hand

end
-- ==== Proof.IdealFrame.lean ====
/-
  The region's run, point by point.  The accumulator after point n is the block sum of point n added to
  the accumulator after point n-1, starting from zero at the first point; the output window's buffer is
  written only at the last point, with the accumulator's value.  With these as the proof data, the body
  meets its obligation at every point (three cases: first, last, in between), the launch theorem gives
  the run of the whole program — the region, then the host operations — and the arguments end unchanged.
-/
import proofs.«126601_j68753836474735_1_alg».proof.Proof.IdealRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the accumulator holds after each point -/

/-- The accumulator after the body at point `n`. -/
def acc (c : Dev nD) : (n : ℕ) → n < cfg0.N → Vec F S1x1 .f32
  | 0, hn => k0_pay2 (iblk m c 0 ⟨0, hn⟩) (iblk m c 1 ⟨0, hn⟩) (k0_pay1 (F := F))
  | n + 1, hn => k0_pay2 (iblk m c 0 ⟨n + 1, hn⟩) (iblk m c 1 ⟨n + 1, hn⟩) (acc c n (Nat.lt_of_succ_lt hn))

theorem acc_zero (c : Dev nD) (t : Fin cfg0.N) (ht : t.val = 0) :
    acc m c t.val t.isLt = k0_pay2 (iblk m c 0 t) (iblk m c 1 t) (k0_pay1 (F := F)) := by
  obtain ⟨n, hn⟩ := t
  cases n with
  | zero => rfl
  | succ n => exact absurd ht (Nat.succ_ne_zero n)

theorem acc_pos (c : Dev nD) (t : Fin cfg0.N) (ht : t.val ≠ 0) :
    acc m c t.val t.isLt = k0_pay2 (iblk m c 0 t) (iblk m c 1 t) (acc m c (t.val - 1) (Nat.lt_of_le_of_lt (Nat.sub_le _ _) t.isLt)) := by
  obtain ⟨n, hn⟩ := t
  cases n with
  | zero => exact absurd rfl ht
  | succ n => rfl

/-- The region's invariant before position `n`: before the first point the scratch holds anything; afterwards it holds
    the accumulator the point before left. -/
def PhiS (c : Dev nD) : (n : ℕ) → n ≤ cfg0.N → sProp 𝕄
  | 0, _ => Pipeline.ΦA spec0 c
  | n + 1, hn => iprop(iprop(owns (c : Thread nD τ) scM fullShare (acc m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (acc m c n hn)) ∗ (∃ r, prngReg c r)) := rfl

theorem PhiS_pos (c : Dev nD) (n : ℕ) (h : n ≤ cfg0.N) (hz : n ≠ 0) :
    PhiS m c n h = iprop(iprop(owns (c : Thread nD τ) scM fullShare (acc m c (n - 1) (by omega))) ∗ (∃ r, prngReg c r)) := by
  cases n with
  | zero => exact absurd rfl hz
  | succ n => rfl

/-! ## The proof data -/

/-- The arrays as the region finds them; after the body each input's buffer at its block and the output's at the
    accumulator; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => acc m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = acc m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point.  At the first point the scratch is handed over at anything and comes back at the first
    block sum; at a later point it is handed over at the accumulator the point before left and comes back at the next one;
    at the last point the output's buffer also comes back holding the accumulator; elsewhere it is handed back untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 62 := lt_of_lt_of_eq t.isLt (show cfg0.N = 62 from N_0)
  by_cases hz : t.val = 0
  · have hl : ¬condLast (grid0.coords t) := fun h => by have := (hcondLast t).mp h; omega
    have hf : condFirst (grid0.coords t) := (hcondFirst t).mpr hz
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [Dat.leavesExact_idle (dats m 0 c) 2 t (idleAt0_2 t hl) (noFlush0_2 t hl)]
    rw [acc_zero m c t hz, PhiS_castSucc m c t, PhiS_zero m c _ _ hz, PhiA0_eq]
    obtain ⟨LS, hchar, hrun⟩ := runFirst c (grid0.coords t) (ms0_0 t) (hs0_0 t) (ms0_1 t) (hs0_1 t) (ms0_2 t) (hs0_2 t) scM (Memref.isWhole_whole _) hf hl (iblk m c 0 t) (iblk m c 1 t)
    iintro ⟨⟨HS, Hg⟩, Ho, ⟨%d0, H0⟩, ⟨%d1, H1⟩, ⟨%d2, H2⟩⟩
    iapply (hrun _ Set.univ _)
    isplitl [H0]; · iexact H0
    isplitl [H1]; · iexact H1
    isplitl [H2]; · iexact H2
    isplitl [HS]; · iexact HS
    iintro ⟨H0, H1, H2, ⟨%es, HS⟩⟩
    isplitl [HS Hg]
    · isplitl [HS]
      · unfold owns; iexists _; isplitr
        swap; · iexact HS
        ipureintro; exact hchar _ _
      iexact Hg
    isplitl [Ho]; · iexact Ho
    isplitl [H0]; · iexact H0
    isplitl [H1]; · iexact H1
    iexists _; iexact H2
  have hf : ¬condFirst (grid0.coords t) := fun h => hz ((hcondFirst t).mp h)
  by_cases h61 : t.val = 61
  · have hl : condLast (grid0.coords t) := (hcondLast t).mpr h61
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t hl], after0_2]
    rw [acc_pos m c t hz, PhiS_castSucc m c t, PhiS_pos m c _ _ hz]
    obtain ⟨L3, LS, hchar3, hchar, hrun⟩ := runLast c (grid0.coords t) (ms0_0 t) (hs0_0 t) (ms0_1 t) (hs0_1 t) (ms0_2 t) (hs0_2 t) scM (Memref.isWhole_whole _) hf hl (iblk m c 0 t) (iblk m c 1 t)
      (acc m c (t.val - 1) (Nat.lt_of_le_of_lt (Nat.sub_le _ _) t.isLt))
    iintro ⟨⟨HS, Hg⟩, Ho, ⟨%d0, H0⟩, ⟨%d1, H1⟩, ⟨%d2, H2⟩⟩
    iapply (hrun Set.univ _)
    isplitl [H0]; · iexact H0
    isplitl [H1]; · iexact H1
    isplitl [H2]; · iexists _; iexact H2
    isplitl [HS]; · iexact HS
    iintro ⟨H0, H1, ⟨%e3, H2⟩, ⟨%es, HS⟩⟩
    isplitl [HS Hg]
    · isplitl [HS]
      · unfold owns; iexists _; isplitr
        swap; · iexact HS
        ipureintro; exact hchar _ _
      iexact Hg
    isplitl [Ho]; · iexact Ho
    isplitl [H0]; · iexact H0
    isplitl [H1]; · iexact H1
    unfold owns; iexists _; isplitr
    swap; · iexact H2
    ipureintro; exact hchar3 _ _
  · have hl : ¬condLast (grid0.coords t) := fun h => h61 ((hcondLast t).mp h)
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [Dat.leavesExact_idle (dats m 0 c) 2 t (idleAt0_2 t hl) (noFlush0_2 t hl)]
    rw [acc_pos m c t hz, PhiS_castSucc m c t, PhiS_pos m c _ _ hz]
    obtain ⟨LS, hchar, hrun⟩ := runMiddle c (grid0.coords t) (ms0_0 t) (hs0_0 t) (ms0_1 t) (hs0_1 t) (ms0_2 t) (hs0_2 t) scM (Memref.isWhole_whole _) hf hl (iblk m c 0 t) (iblk m c 1 t)
      (acc m c (t.val - 1) (Nat.lt_of_le_of_lt (Nat.sub_le _ _) t.isLt))
    iintro ⟨⟨HS, Hg⟩, Ho, ⟨%d0, H0⟩, ⟨%d1, H1⟩, ⟨%d2, H2⟩⟩
    iapply (hrun _ Set.univ _)
    isplitl [H0]; · iexact H0
    isplitl [H1]; · iexact H1
    isplitl [H2]; · iexact H2
    isplitl [HS]; · iexact HS
    iintro ⟨H0, H1, H2, ⟨%es, HS⟩⟩
    isplitl [HS Hg]
    · isplitl [HS]
      · unfold owns; iexists _; isplitr
        swap; · iexact HS
        ipureintro; exact hchar _ _
      iexact Hg
    isplitl [Ho]; · iexact Ho
    isplitl [H0]; · iexact H0
    isplitl [H1]; · iexact H1
    iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives that back: the accumulator's value is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 62 := N_0; omega)

/-! ## The run and the frame -/

set_option backward.isDefEq.respectTransparency.types false in
/-- From any memory with zero counters every weakly fair execution of the program terminates, with every window's
    array at what the proof data say and every other unscoped buffer as the host operations after the region leave it. -/
theorem run_main : θ_run defs (onTc (τ := τ) (main (F := F))) (s₀ m ρ) (Pipeline.FramePost cfgs (dats m) 0 (Pipeline.afterTail₀ cfgs (dats m) 0 (V0 m) (tailOps (F := F)))) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The program runs to the end, faults nowhere, and leaves its nine arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Hand

end
-- ==== Proof.LibSigmoidPower.lean ====
/-
  General facts about the extended reals, as an idealized float program computes on them, that join a kernel's
  arithmetic to a reference's: the sigmoid of any extended real — infinite ones included — is a real number; the power
  with the real exponent 4 of a real number is the number squared and squared again (for a negative base too: the
  exponent is an even integer); one minus a real number is a real number; the single-precision patterns of 0.0, 1.0 and
  4.0 denote 0, 1 and 4; and a shape cast only renames indices, so the sum over a cast array is the sum over the array.
-/
import Idealize.ShloMosaic.PureOps.Ideal
import Idealize.ShloMosaic.PureOps.Ideal.Laws
import Idealize.ShloMosaic.Lib.ValueIdx

noncomputable section

namespace Cert.Lib

open Idealize.ShloMosaic

/-- The single-precision pattern of +0.0 denotes the number 0. -/
theorem ofBits_f32_zero : Ideal.ofBits .f32 0x00000000#32 = 0 := by
  simp [Ideal.ofBits, Ideal.ieee]

/-- The single-precision pattern of 1.0 denotes the number 1. -/
theorem ofBits_f32_one : Ideal.ofBits .f32 0x3F800000#32 = 1 := by
  simp [Ideal.ofBits, Ideal.ieee, -EReal.coe_mul]; norm_num

/-- The single-precision pattern of 4.0 denotes the real number 4. -/
theorem ofBits_f32_four : Ideal.ofBits .f32 0x40800000#32 = ((4 : ℝ) : EReal) := by
  simp [Ideal.ofBits, Ideal.ieee, -EReal.coe_mul]; norm_num

/-- The sigmoid of any extended real is a real number: 0 at -inf, 1 at +inf, 1/(1+e^(-r)) at a real r. -/
theorem logistic_real (x : EReal) : ∃ s : ℝ, Ideal.logistic x = (s : EReal) := by
  induction x using EReal.rec with
  | bot => exact ⟨0, by rw [Ideal.logistic_bot]; rfl⟩
  | coe r => exact ⟨_, Ideal.logistic_coe r⟩
  | top => exact ⟨1, by rw [Ideal.logistic_top]; rfl⟩

/-- The power with the real exponent 4 of a real number is its square squared. -/
theorem rpow_four_eq_sq_sq (r : ℝ) : Ideal.pow (r : EReal) ((4 : ℝ) : EReal) = ((r : EReal) * r) * ((r : EReal) * r) := by
  rw [Ideal.pow_coe_coe, ← EReal.coe_mul, ← EReal.coe_mul]
  congr 1
  have h4 : Real.rpow r 4 = r ^ (4 : ℕ) := by
    rw [Real.rpow_eq_pow]; exact_mod_cast Real.rpow_natCast r 4
  rw [h4]; ring

/-- One minus a real number is a real number. -/
theorem one_sub_real (h : ℝ) : (1 : EReal) - (h : EReal) = ((1 - h : ℝ) : EReal) := by
  rw [EReal.coe_sub, EReal.coe_one]

/-- The sum over a shape-cast array is the sum over the array: the cast renames the indices one to one. -/
theorem sum_shapeCast {s t : Shape} (x : s.Idx → EReal) (h : s.ShapeCasts t) :
    ∑ j : t.Idx, shapeCast t x h j = ∑ k : s.Idx, x k :=
  Equiv.sum_comp (Shape.reshapeEquiv h) x

end Cert.Lib

end
-- ==== Proof.FocalAlgebra.lean ====
/-
  The few facts about extended reals that join the two ways the negative focal term is computed.

  The sigmoid of an extended real is always a real number; the real power with exponent 4 of a real number is the number
  squared and squared again; zero minus y is -y; a shape cast only renames indices.  With these the kernel's per-entry
  term (fourth powers by squaring twice) and the reference's (real powers with exponent 4) are equal for a real target.
-/
import Idealize.ShloMosaic.PureOps.Ideal
import Idealize.ShloMosaic.PureOps.Ideal.Laws
import Idealize.ShloMosaic.Lib.ValueIdx
import proofs.«126601_j68753836474735_1_alg».proof.Proof.LibSigmoidPower

noncomputable section

namespace Cert.Focal

open Idealize.ShloMosaic

/-- The pattern of +0.0 is the number 0. -/
theorem ofBits_zero : Ideal.ofBits .f32 0x00000000#32 = 0 := Cert.Lib.ofBits_f32_zero

/-- The pattern of 1.0 is the number 1. -/
theorem ofBits_one : Ideal.ofBits .f32 0x3F800000#32 = 1 := Cert.Lib.ofBits_f32_one

/-- The pattern of 4.0 is the real number 4. -/
theorem ofBits_four : Ideal.ofBits .f32 0x40800000#32 = ((4 : ℝ) : EReal) := Cert.Lib.ofBits_f32_four

/-- The sigmoid of any extended real is a real number. -/
theorem logistic_real (x : EReal) : ∃ s : ℝ, Ideal.logistic x = (s : EReal) := Cert.Lib.logistic_real x

/-- The power with exponent 4 of a real number is its square squared. -/
theorem pow_four (r : ℝ) : Ideal.pow (r : EReal) ((4 : ℝ) : EReal) = ((r : EReal) * r) * ((r : EReal) * r) :=
  Cert.Lib.rpow_four_eq_sq_sq r

/-- One minus a real number is a real number. -/
theorem one_sub_coe (h : ℝ) : (1 : EReal) - (h : EReal) = ((1 - h : ℝ) : EReal) := Cert.Lib.one_sub_real h

/-- Zero minus y is minus y. -/
theorem zero_sub' (y : EReal) : (0 : EReal) - y = -y := zero_sub y

/-- The sum over a shape-cast array is the sum over the array. -/
theorem sum_shapeCast {s t : Shape} (x : s.Idx → EReal) (h : s.ShapeCasts t) :
    ∑ j : t.Idx, shapeCast t x h j = ∑ k : s.Idx, x k := Cert.Lib.sum_shapeCast x h

/-- The negative focal term of one heat-map entry as the kernel computes it, over the extended reals: with s the sigmoid
    of the logit x and h the target, it is (0 - log(1 - s)) · ((s·s)·(s·s)) · (((1-h)·(1-h))·((1-h)·(1-h))) where s is below
    the literal 0.85, and zero elsewhere. -/
def kTerm (x h : Ideal .f32) : Ideal .f32 :=
  Scalar.select (FloatOps.cmpf (F := Ideal) .olt (FloatOps.logistic x) (FloatOps.ofBits .f32 0x3F59999A#32))
    (FloatOps.mulf
      (FloatOps.mulf
        (FloatOps.subf (FloatOps.ofBits .f32 0x00000000#32) (FloatOps.log (FloatOps.subf (FloatOps.ofBits .f32 0x3F800000#32) (FloatOps.logistic x))))
        (FloatOps.mulf (FloatOps.mulf (FloatOps.logistic x) (FloatOps.logistic x)) (FloatOps.mulf (FloatOps.logistic x) (FloatOps.logistic x))))
      (FloatOps.mulf
        (FloatOps.mulf (FloatOps.subf (FloatOps.ofBits .f32 0x3F800000#32) h) (FloatOps.subf (FloatOps.ofBits .f32 0x3F800000#32) h))
        (FloatOps.mulf (FloatOps.subf (FloatOps.ofBits .f32 0x3F800000#32) h) (FloatOps.subf (FloatOps.ofBits .f32 0x3F800000#32) h))))
    (FloatOps.ofBits .f32 0x00000000#32)

/-- The sigmoid as the reference's program spells it: 1 / (1 + e^(-x)). -/
def hostSigmoid (x : Ideal .f32) : Ideal .f32 :=
  FloatOps.hostDivf (FloatOps.ofBits .f32 0x3F800000#32)
    (FloatOps.addf (FloatOps.ofBits .f32 0x3F800000#32) (FloatOps.hostUnary .exp (FloatOps.hostNegf x)))

/-- The negative focal term of one heat-map entry as the reference computes it: with s the sigmoid of the logit x and h
    the target, it is -log(1 - s) · s^4 · (1 - h)^4 where s is below the literal 0.85, and zero elsewhere. -/
def rTerm (x h : Ideal .f32) : Ideal .f32 :=
  Scalar.select (FloatOps.cmpf (F := Ideal) .olt (hostSigmoid x) (FloatOps.ofBits .f32 0x3F59999A#32))
    (FloatOps.mulf
      (FloatOps.mulf
        (FloatOps.hostNegf (FloatOps.hostUnary .log (FloatOps.subf (FloatOps.ofBits .f32 0x3F800000#32) (hostSigmoid x))))
        (FloatOps.hostPowf (hostSigmoid x) (FloatOps.ofBits .f32 0x40800000#32)))
      (FloatOps.hostPowf (FloatOps.subf (FloatOps.ofBits .f32 0x3F800000#32) h) (FloatOps.ofBits .f32 0x40800000#32)))
    (FloatOps.ofBits .f32 0x00000000#32)

/-- The reference's spelling of the sigmoid is the sigmoid. -/
theorem hostSigmoid_eq (x : Ideal .f32) : hostSigmoid x = Ideal.logistic x := by
  unfold hostSigmoid
  simp only [Ideal.hostDivf_def, Ideal.addf_def, Ideal.hostUnary_exp_def, Ideal.hostNegf_def, Ideal.negf_def, Ideal.ofBits_def,
    ofBits_one]
  rfl

/-- For a real target the two ways of computing the term agree: the sigmoid is a real number, so its fourth power by
    squaring twice is its real power with exponent 4, and likewise for one minus the target. -/
theorem term_eq (x : Ideal .f32) (r : ℝ) : kTerm x ((r : ℝ) : EReal) = rTerm x ((r : ℝ) : EReal) := by
  obtain ⟨s, hs⟩ := logistic_real x
  unfold kTerm rTerm
  rw [hostSigmoid_eq]
  simp only [Ideal.logistic_def, Ideal.ofBits_def, Ideal.subf_def, Ideal.mulf_def, Ideal.log_def, Ideal.hostUnary_log_def,
    Ideal.hostNegf_def, Ideal.negf_def, Ideal.hostPowf_def, ofBits_one, ofBits_zero, ofBits_four, hs, one_sub_coe, pow_four,
    zero_sub]

end Cert.Focal

end
-- ==== Proof.LibRowBlockSum.lean ====
/-
  A general lemma about sums over the indices of a two-axis array whose first extent is a product a·b: the sum over
  all indices (r, c), r < a·b, c < n, is the sum over the a row blocks t of the sum over the indices (p, c), p < b,
  c < n, of the term at row p + b·t. It holds in any commutative additive monoid — so over the extended reals, with
  infinite values allowed: only the order and grouping of a finite sum change.
-/
import Idealize.ShloMosaic.PureOps.Ideal
import Idealize.ShloMosaic.Lib.ValueIdx

noncomputable section

namespace Cert.Lib

open Idealize.ShloMosaic Idealize.ShloMosaic.ValueIdx

/-- Row `p` of row block `t`, of `a` blocks of `b` rows: row p + b·t. -/
def blockRow {a b : ℕ} (t : Fin a) (p : Fin b) : Fin (a * b) := finProdFinEquiv (t, p)

theorem blockRow_val {a b : ℕ} (t : Fin a) (p : Fin b) : (blockRow t p).val = p.val + b * t.val := rfl

/-- A sum over the a·b rows is the double sum over a blocks of b rows. -/
theorem sum_rows_blocks {M : Type*} [AddCommMonoid M] {a b : ℕ} (g : Fin (a * b) → M) :
    ∑ r, g r = ∑ t : Fin a, ∑ p : Fin b, g (blockRow t p) := by
  rw [← Equiv.sum_comp (finProdFinEquiv (m := a) (n := b)) g, Fintype.sum_prod_type]
  rfl

/-- A sum over the indices of an [a·b, n] array is the sum over the row blocks of the sums over the indices of a
    [b, n] block, the term read at the block's row. -/
theorem sum_row_blocks {M : Type*} [AddCommMonoid M] {a b n : ℕ} (f : (⟨2, ![a * b, n]⟩ : Shape).Idx → M) :
    ∑ j, f j = ∑ t : Fin a, ∑ idx : (⟨2, ![b, n]⟩ : Shape).Idx, f (ix2 (blockRow t (idx 0)) (idx 1)) := by
  rw [sum_idx2, sum_rows_blocks]
  refine Finset.sum_congr rfl fun t _ => ?_
  rw [sum_idx2]
  rfl

end Cert.Lib

end
-- ==== Proof.IdealValue.lean ====
/-
  What the region computes, at the ideal instance.  After point n the accumulator holds the sum, over the points up
  to n and over the 5632 × 80 entries of each point's blocks, of the negative focal term of the logit and target
  found there.  Point t's blocks are rows 5632·t … 5632·t + 5631 of the two arrays, so after the last point the
  accumulator — which is what the region writes into its one-element result — holds the sum of the term over all
  349184 × 80 entries: a finite sum regrouped, which needs no finiteness of its terms.
-/
import proofs.«126601_j68753836474735_1_alg».proof.Proof.IdealFrame
import proofs.«126601_j68753836474735_1_alg».proof.Proof.FocalAlgebra
import proofs.«126601_j68753836474735_1_alg».proof.Proof.LibRowBlockSum
import Idealize.ShloMosaic.PureOps.Ideal.Laws
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.Lib

variable (m : (ℓ : Loc nD τ sig) → Buf (Elt Ideal) ℓ) (ρ : Dev nD → PrngReg)

/-! ## The payloads at the ideal instance -/

/-- The value the first point stores into the accumulator is zero. -/
theorem pay1_apply (j : S1x1.Idx) : k0_pay1 (F := Ideal) j = 0 := by
  unfold k0_pay1
  rw [shapeCast_self, broadcast_apply]
  exact Cert.Focal.ofBits_zero

/-- The value a point stores into the accumulator: what the accumulator held plus the sum, over the block's entries, of the
    negative focal term. -/
theorem pay2_apply (x0 x1 : Vec Ideal S5632x80 .f32) (xs : Vec Ideal S1x1 .f32) (j : S1x1.Idx) :
    k0_pay2 (F := Ideal) x0 x1 xs j = xs j + ∑ y : S5632x80.Idx, Cert.Focal.kTerm (x0 y) (x1 y) := by
  unfold k0_pay2
  rw [shapeCast_self, addf_apply, broadcast_apply]
  refine congrArg (xs j + ·) ?_
  exact (Ideal.multiReduction_add_total _ 0x00000000#32 reduces_S1x5632x80_S1 (fun b => by fin_cases b; rfl) (.inl rfl) rfl _).trans
    ((Cert.Focal.sum_shapeCast _ shapeCasts_S5632x80_S1x5632x80).trans rfl)

/-! ## Indices -/

/-- A [1,1] array has the one index (0,0). -/
theorem idx11 (j : S1x1.Idx) : j = ix2 (0 : Fin 1) (0 : Fin 1) := by
  have h0 := idx2_lt0 j
  have h1 := idx2_lt1 j
  funext a
  match a with
  | ⟨0, _⟩ => exact Fin.ext (by show (j 0).val = 0; omega)
  | ⟨1, _⟩ => exact Fin.ext (by show (j 1).val = 0; omega)

/-- The grid has 62 points; the last is point 61. -/
theorem last_lt : 61 < cfg0.N := by rw [show cfg0.N = 62 from N_0]; decide

/-- Both input windows' block index at point t is (t, 0). -/
theorem index_facts : ∀ t : Fin cfg0.N,
    (win0_0.index t (0 : Fin 2) = t.val ∧ win0_0.index t (1 : Fin 2) = 0) ∧ (win0_1.index t (0 : Fin 2) = t.val ∧ win0_1.index t (1 : Fin 2) = 0) :=
  (by decide +kernel : ∀ t : Fin grid0.N,
    (win0_0.index t (0 : Fin 2) = t.val ∧ win0_0.index t (1 : Fin 2) = 0) ∧ (win0_1.index t (0 : Fin 2) = t.val ∧ win0_1.index t (1 : Fin 2) = 0))

/-- Entry x of the logits' block at point t is entry (5632·t + x₀, x₁) of the logits. -/
theorem iblk0_apply (c : Dev nD) (t : Fin cfg0.N) (x : S5632x80.Idx) (k : S349184x80.Idx)
    (hk0 : (k 0).val = 5632 * t.val + (x 0).val) (hk1 : (k 1).val = (x 1).val) :
    (iblk m c 0 t : Vec Ideal S5632x80 .f32) x = (m ((c : Thread nD τ).loc main_arg0) : S349184x80.Idx → Elt Ideal .f32) k := by
  have hi := (index_facts t).1
  unfold iblk
  rw [View.read_apply]
  show V m c main_arg0 _ = m (c.tc.loc main_arg0) _
  unfold V
  congr 1
  funext a
  apply Fin.ext
  match a with
  | ⟨0, _⟩ => show win0_0.index t 0 * 5632 + 1 * (x 0).val = (k 0).val; rw [hi.1, hk0]; omega
  | ⟨1, _⟩ => show win0_0.index t 1 * 80 + 1 * (x 1).val = (k 1).val; rw [hi.2, hk1]; omega

/-- Entry x of the targets' block at point t is entry (5632·t + x₀, x₁) of the targets. -/
theorem iblk1_apply (c : Dev nD) (t : Fin cfg0.N) (x : S5632x80.Idx) (k : S349184x80.Idx)
    (hk0 : (k 0).val = 5632 * t.val + (x 0).val) (hk1 : (k 1).val = (x 1).val) :
    (iblk m c 1 t : Vec Ideal S5632x80 .f32) x = (m ((c : Thread nD τ).loc main_arg2) : S349184x80.Idx → Elt Ideal .f32) k := by
  have hi := (index_facts t).2
  unfold iblk
  rw [View.read_apply]
  show V m c main_arg2 _ = m (c.tc.loc main_arg2) _
  unfold V
  congr 1
  funext a
  apply Fin.ext
  match a with
  | ⟨0, _⟩ => show win0_1.index t 0 * 5632 + 1 * (x 0).val = (k 0).val; rw [hi.1, hk0]; omega
  | ⟨1, _⟩ => show win0_1.index t 1 * 80 + 1 * (x 1).val = (k 1).val; rw [hi.2, hk1]; omega

/-! ## The accumulator as a sum -/

/-- The logits and the targets, as arrays of extended reals. -/
abbrev logits (c : Dev nD) : S349184x80.Idx → EReal := m ((c : Thread nD τ).loc main_arg0)
abbrev targets (c : Dev nD) : S349184x80.Idx → EReal := m ((c : Thread nD τ).loc main_arg2)

/-- The sum of the term over the entries of point n's blocks (zero past the grid). -/
def blockSum (c : Dev nD) (n : ℕ) : EReal :=
  if h : n < cfg0.N then ∑ y : S5632x80.Idx, Cert.Focal.kTerm (iblk m c 0 ⟨n, h⟩ y) (iblk m c 1 ⟨n, h⟩ y) else 0

/-- After point n the accumulator holds the block sums of the points up to n. -/
theorem acc_sum (c : Dev nD) : ∀ (n : ℕ) (hn : n < cfg0.N),
    acc m c n hn (ix2 (0 : Fin 1) (0 : Fin 1)) = ∑ k ∈ Finset.range (n + 1), blockSum m c k
  | 0, hn => by
    show k0_pay2 (F := Ideal) (iblk m c 0 ⟨0, hn⟩) (iblk m c 1 ⟨0, hn⟩) (k0_pay1 (F := Ideal)) _ = _
    rw [pay2_apply, pay1_apply, zero_add, Finset.sum_range_one, blockSum, dif_pos hn]
  | n + 1, hn => by
    show k0_pay2 (F := Ideal) (iblk m c 0 ⟨n + 1, hn⟩) (iblk m c 1 ⟨n + 1, hn⟩) (acc m c n (Nat.lt_of_succ_lt hn)) _ = _
    rw [pay2_apply, acc_sum c n (Nat.lt_of_succ_lt hn), Finset.sum_range_succ _ (n + 1), blockSum, dif_pos hn]

/-- Point t's block sum, read off the arrays: the term at rows 5632·t … 5632·t + 5631. -/
theorem blockSum_rows (c : Dev nD) (t : Fin 62) :
    blockSum m c t.val = ∑ y : (⟨2, ![5632, 80]⟩ : Shape).Idx,
      Cert.Focal.kTerm (logits m c (ix2 (blockRow t (y 0)) (y 1))) (targets m c (ix2 (blockRow t (y 0)) (y 1))) := by
  have ht : t.val < cfg0.N := by rw [show cfg0.N = 62 from N_0]; exact t.isLt
  rw [blockSum, dif_pos ht]
  refine Finset.sum_congr rfl fun y _ => ?_
  rw [iblk0_apply m c ⟨t.val, ht⟩ y (ix2 (blockRow t (y 0)) (y 1)) (by show (y 0).val + 5632 * t.val = 5632 * t.val + (y 0).val; omega) rfl,
    iblk1_apply m c ⟨t.val, ht⟩ y (ix2 (blockRow t (y 0)) (y 1)) (by show (y 0).val + 5632 * t.val = 5632 * t.val + (y 0).val; omega) rfl]

/-- After the last point the accumulator holds the sum of the term over every entry of the two arrays. -/
theorem acc_last (c : Dev nD) :
    acc m c 61 last_lt (ix2 (0 : Fin 1) (0 : Fin 1)) = ∑ j : S349184x80.Idx, Cert.Focal.kTerm (logits m c j) (targets m c j) := by
  rw [acc_sum m c 61 last_lt, Finset.sum_range (fun k => blockSum m c k)]
  refine (Finset.sum_congr rfl fun t _ => blockSum_rows m c t).trans ?_
  exact (sum_row_blocks (a := 62) (b := 5632) (n := 80) (fun j => Cert.Focal.kTerm (logits m c j) (targets m c j))).symm

/-! ## The region's result -/

/-- What the region's one-element result array ends with: the accumulator after the last point. -/
abbrev regionOut (c : Dev nD) : Buf (Elt Ideal) ((c : Thread nD τ).loc main_v0) := acc m c 61 last_lt

/-- The one write-back, at the last point, writes the accumulator: block (0,0) of a [1,1] array read through zero
    offsets is the array. -/
theorem flushed_eq (c : Dev nD) (t : Fin cfg0.N) (hf : (cfg0.win 2).flush t = true) :
    (dats m 0 c).flushed 2 t = ((cfg0.win 2).blk t).view.read (Elt Ideal) (regionOut m c) := by
  have hN : cfg0.N = 62 := N_0
  have h1 : t.val = 61 := by have := (flush0_2 t).mp hf; have := t.isLt; omega
  obtain rfl : t = ⟨61, last_lt⟩ := Fin.ext h1
  show (cfg0.win 2).cut (grid0.coords ⟨61, last_lt⟩) ((dats m 0 c).after 2 ⟨61, last_lt⟩) = _
  rw [after0_2]
  have hz' : (fun a => win0_2.index ⟨61, last_lt⟩ a * main_v0.ty.shape.size a) = fun _ => 0 :=
    funext fun a => by fin_cases a <;> decide +kernel
  exact (Memref.read_access_unit_zero (Elt Ideal) main_v0 hz' (fun a => by rw [congrFun hz' a]; simp) (regionOut m c)).symm

/-- So the result array ends holding the accumulator: the last point's block is the whole array. -/
theorem final_out (c : Dev nD) : (dats m 0 c).arrAt 2 cfg0.N = regionOut m c :=
  (dats m 0 c).arrAt_eq_of_cover 2 (regionOut m c) (flushed_eq m c) fun i =>
    ⟨⟨61, last_lt⟩, (flush0_2 _).mpr rfl, by
      show i ∈ ((View.whole main_v0).slice (win0_2.rect ⟨61, last_lt⟩)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index ⟨61, last_lt⟩ 0 * win0_2.size 0 ≤ (i 0 : Nat) ∧ (i 0 : Nat) < win0_2.index ⟨61, last_lt⟩ 0 * win0_2.size 0 + win0_2.xsize (grid0.coords ⟨61, last_lt⟩) 0
        rw [show win0_2.index ⟨61, last_lt⟩ 0 * win0_2.size 0 = 0 from by decide +kernel,
          show win0_2.xsize (grid0.coords ⟨61, last_lt⟩) 0 = 1 from by decide +kernel]; omega
      | ⟨1, _⟩ =>
        show win0_2.index ⟨61, last_lt⟩ 1 * win0_2.size 1 ≤ (i 1 : Nat) ∧ (i 1 : Nat) < win0_2.index ⟨61, last_lt⟩ 1 * win0_2.size 1 + win0_2.xsize (grid0.coords ⟨61, last_lt⟩) 1
        rw [show win0_2.index ⟨61, last_lt⟩ 1 * win0_2.size 1 = 0 from by decide +kernel,
          show win0_2.xsize (grid0.coords ⟨61, last_lt⟩) 1 = 1 from by decide +kernel]; omega⟩

end Cert.KernelIdeal.Hand

end
-- ==== Proof.IdealTail.lean ====
/-
  What the host operations after the region compute.  They produce the three losses from the arguments and from
  the region's one-element result: the positive focal loss and the box-regression loss by exactly the operations the
  reference applies — except that the kernel's program gathers rows of the logits first and applies the sigmoid to what
  it gathered, where the reference applies the sigmoid to the whole array and gathers afterwards; a gather only selects
  entries, so the two orders give the same entries —, and the negative focal loss as 0.375 times the region's sum,
  divided by 256.  The operations are read in three stages: first the positive focal loss, the negative one and the
  validity mask of the candidate locations; then the weights, their clamped sum, the gathered boxes and the masked
  targets; last the box-regression loss and the three losses side by side.  Each stage is stated over an arbitrary
  assignment `V` of contents to the buffers it reads.
-/
import proofs.«126601_j68753836474735_1_alg».proof.Proof.IdealAround
import proofs.«126601_j68753836474735_1_alg».proof.Proof.RefReadP
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.StableHlo

variable [Cert.ReferenceIdeal.Facts]

/-- Running one list of operations after another. -/
theorem after_append' (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih (op.result V)

/-- The negative focal loss from the region's one-element result: 0.375 · s / 256. -/
def negLoss (s : (⟨S1x1, .f32⟩ : BufTy).Contents (Elt F)) : (⟨S_, .f32⟩ : BufTy).Contents (Elt F) :=
  Host.divf (mulf (constant S_ .f32 0x3EC00000#32) (shapeCast S_ s shapeCasts_S1x1_S_)) (constant S_ .f32 0x43800000#32)

/-- A gather only selects entries, so the sigmoid of gathered logits is the gather of the logits' sigmoids:
    for the pairs (row, column) of the positive locations, -/
theorem sigmoid_gather_pairs (X : (⟨S349184x80, .f32⟩ : BufTy).Contents (Elt F)) (I : (⟨S1280x2, .i32⟩ : BufTy).Contents (Elt F)) :
    Host.divf (broadcastInDim S1280 ![] bcast_S_S1280 (constant (F := F) S_ .f32 0x3F800000#32)) (addf (broadcastInDim S1280 ![] bcast_S_S1280 (constant (F := F) S_ .f32 0x3F800000#32))
        (Host.exp (Host.negf (Host.gather gather_S349184x80_S1280x2_S1280_n_01_n_n_01_1_11 X I))))
      = Host.gather gather_S349184x80_S1280x2_S1280_n_01_n_n_01_1_11
          (Host.divf (broadcastInDim Cert.ReferenceIdeal.S349184x80 ![] Cert.ReferenceIdeal.Facts₀.bcast_S_S349184x80 (constant (F := F) Cert.ReferenceIdeal.S_ .f32 0x3F800000#32)) (addf (broadcastInDim Cert.ReferenceIdeal.S349184x80 ![] Cert.ReferenceIdeal.Facts₀.bcast_S_S349184x80 (constant (F := F) Cert.ReferenceIdeal.S_ .f32 0x3F800000#32)) (Host.exp (Host.negf X)))) I := by
  funext j; rfl

/-- and for the whole rows of the candidate locations. -/
theorem sigmoid_gather_rows (X : (⟨S349184x80, .f32⟩ : BufTy).Contents (Elt F)) (I : (⟨S256x5x9x1, .i32⟩ : BufTy).Contents (Elt F)) :
    Host.divf (broadcastInDim S256x5x9x80 ![] bcast_S_S256x5x9x80 (constant (F := F) S_ .f32 0x3F800000#32)) (addf (broadcastInDim S256x5x9x80 ![] bcast_S_S256x5x9x80 (constant (F := F) S_ .f32 0x3F800000#32))
        (Host.exp (Host.negf (Host.gather gather_S349184x80_S256x5x9x1_S256x5x9x80_3_0_n_n_0_3_180 X I))))
      = Host.gather gather_S349184x80_S256x5x9x1_S256x5x9x80_3_0_n_n_0_3_180
          (Host.divf (broadcastInDim Cert.ReferenceIdeal.S349184x80 ![] Cert.ReferenceIdeal.Facts₀.bcast_S_S349184x80 (constant (F := F) Cert.ReferenceIdeal.S_ .f32 0x3F800000#32)) (addf (broadcastInDim Cert.ReferenceIdeal.S349184x80 ![] Cert.ReferenceIdeal.Facts₀.bcast_S_S349184x80 (constant (F := F) Cert.ReferenceIdeal.S_ .f32 0x3F800000#32)) (Host.exp (Host.negf X)))) I := by
  funext j; rfl

/-- The last host operation: the three losses set side by side. -/
abbrev lastOp : HloOp τ sig (Elt F) :=
  StableHlo.nary ![main_v130, main_v131, main_v132] main_v133 (fun u => concatenate S3 0 [⟨S1, u 0⟩, ⟨S1, u 1⟩, ⟨S1, u 2⟩] concatenates_S1_S1_S1_S3_d0)

/-- The last stretch is everything before that operation, then that operation. -/
theorem last_split : (hostOps1_6 : List (HloOp τ sig (Elt F))) = hostOps1_6.dropLast ++ [lastOp] := rfl

/-- Reading the result buffer after the last stretch: the three losses, each read after the operations before the last. -/
theorem read_last (V : Valuation τ sig (Elt F)) :
    StableHlo.after (hostOps1_6 (F := F)) V (Proc.devRef .tc main_v133)
      = concatenate S3 0
          [⟨S1, StableHlo.after (hostOps1_6 (F := F)).dropLast V (Proc.devRef .tc main_v130)⟩,
           ⟨S1, StableHlo.after (hostOps1_6 (F := F)).dropLast V (Proc.devRef .tc main_v131)⟩,
           ⟨S1, StableHlo.after (hostOps1_6 (F := F)).dropLast V (Proc.devRef .tc main_v132)⟩]
          concatenates_S1_S1_S1_S3_d0 := by
  rw [last_split, after_append', after_cons, after_nil, nary_result]
  rfl

/-- The first stage: up to the validity mask. -/
abbrev stageI : List (HloOp τ sig (Elt F)) := hostOps1 ++ (hostOps1_1 ++ hostOps1_2)
/-- The second stage: up to the masked targets. -/
abbrev stageII : List (HloOp τ sig (Elt F)) := hostOps1_3 ++ (hostOps1_4 ++ hostOps1_5)

/-- The host operations are the three stages in order. -/
theorem tail_stages : (tailOps (F := F)).flatten = stageI ++ (stageII ++ hostOps1_6) := by
  simp only [tailOps, stageI, stageII, List.flatten_cons, List.flatten_nil, List.append_nil, List.append_assoc]

/-! ## The first stage -/

set_option maxRecDepth 1000000 in
set_option maxHeartbeats 20000000 in
/-- The positive focal loss is the reference's function of the logits, the centre indices, the labels and the masks. -/
theorem stageI_pos (V : Valuation τ sig (Elt F)) :
    StableHlo.after stageI V (Proc.devRef .tc main_v41)
      = Cert.ReferenceIdeal.ReadP.val_main_v37 (F := F) (V (Proc.devRef .tc main_arg0)) (V (Proc.devRef .tc main_arg4)) (V (Proc.devRef .tc main_arg5)) (V (Proc.devRef .tc main_arg6)) := by
  simp only [stageI, hostOps1, hostOps1_1, hostOps1_2, List.cons_append, List.nil_append, List.append_nil]
  after_results_simp
  rw [sigmoid_gather_pairs]
  rfl

set_option maxRecDepth 1000000 in
set_option maxHeartbeats 20000000 in
/-- The negative focal loss is 0.375 times the region's result, divided by 256. -/
theorem stageI_neg (V : Valuation τ sig (Elt F)) :
    StableHlo.after stageI V (Proc.devRef .tc main_v3) = negLoss (F := F) (V (Proc.devRef .tc main_v0)) := by
  simp only [stageI, hostOps1, hostOps1_1, hostOps1_2, List.cons_append, List.nil_append, List.append_nil]
  after_results_simp
  rfl

set_option maxRecDepth 1000000 in
set_option maxHeartbeats 20000000 in
/-- The validity mask of the candidate locations is the reference's. -/
theorem stageI_mask (V : Valuation τ sig (Elt F)) :
    StableHlo.after stageI V (Proc.devRef .tc main_v44) = Cert.ReferenceIdeal.ReadP.val_main_v58 (F := F) (V (Proc.devRef .tc main_arg6)) (V (Proc.devRef .tc main_arg8)) := by
  simp only [stageI, hostOps1, hostOps1_1, hostOps1_2, List.cons_append, List.nil_append, List.append_nil]
  after_results_simp
  rfl

set_option maxRecDepth 1000000 in
set_option maxHeartbeats 20000000 in
/-- The integer zero the next stage substitutes for invalid indices. -/
theorem stageI_zero (V : Valuation τ sig (Elt F)) :
    StableHlo.after stageI V (Proc.devRef .tc main_c_13) = Cert.ReferenceIdeal.ReadP.val_main_c_20 (F := F) := by
  simp only [stageI, hostOps1, hostOps1_1, hostOps1_2, List.cons_append, List.nil_append, List.append_nil]
  after_results_simp
  rfl

/-- No operation of a stretch writes an argument, so an argument reads the same after any of the stages. -/
theorem after_kept (ops : List (HloOp τ sig (Elt F))) (hops : ∀ op ∈ ops, ∀ b ∈ keptRefs, Proc.devRef (τ := τ) .tc b ∉ op.writes)
    (V : Valuation τ sig (Elt F)) (b : Ref sig .tc) (hb : b ∈ keptRefs) :
    StableHlo.after ops V (Proc.devRef .tc b) = V (Proc.devRef .tc b) :=
  StableHlo.after_of_forall_not_mem ops V fun op hop => hops op hop b hb

theorem stageI_kept : ∀ op ∈ (stageI : List (HloOp τ sig (Elt F))), ∀ b ∈ keptRefs, Proc.devRef (τ := τ) .tc b ∉ op.writes := by
  intro op hop
  simp only [stageI, List.mem_append] at hop
  rcases hop with h | h | h
  · exact (List.forall_iff_forall_mem.mp stretch0_writes) op h
  · exact (List.forall_iff_forall_mem.mp stretch1_writes) op h
  · exact (List.forall_iff_forall_mem.mp stretch2_writes) op h

theorem stageII_kept : ∀ op ∈ (stageII : List (HloOp τ sig (Elt F))), ∀ b ∈ keptRefs, Proc.devRef (τ := τ) .tc b ∉ op.writes := by
  intro op hop
  simp only [stageII, List.mem_append] at hop
  rcases hop with h | h | h
  · exact (List.forall_iff_forall_mem.mp stretch3_writes) op h
  · exact (List.forall_iff_forall_mem.mp stretch4_writes) op h
  · exact (List.forall_iff_forall_mem.mp stretch5_writes) op h

/-! ## The second stage -/

set_option maxRecDepth 1000000 in
set_option maxHeartbeats 20000000 in
/-- The two losses of the first stage are not touched by the second. -/
theorem stageII_pos (V : Valuation τ sig (Elt F)) :
    StableHlo.after stageII V (Proc.devRef .tc main_v41) = (V (Proc.devRef .tc main_v41)) := by
  simp only [stageII, hostOps1_3, hostOps1_4, hostOps1_5, List.cons_append, List.nil_append, List.append_nil]
  after_results_simp

set_option maxRecDepth 1000000 in
set_option maxHeartbeats 20000000 in
theorem stageII_neg (V : Valuation τ sig (Elt F)) :
    StableHlo.after stageII V (Proc.devRef .tc main_v3) = (V (Proc.devRef .tc main_v3)) := by
  simp only [stageII, hostOps1_3, hostOps1_4, hostOps1_5, List.cons_append, List.nil_append, List.append_nil]
  after_results_simp

section StageII
variable (V : Valuation τ sig (Elt F))
  (x0 : (⟨S349184x80, .f32⟩ : BufTy).Contents (Elt F)) (x1 : (⟨S349184x4, .f32⟩ : BufTy).Contents (Elt F))
  (x3 : (⟨S256x5x9x4, .f32⟩ : BufTy).Contents (Elt F)) (x6 : (⟨S256x5, .i1⟩ : BufTy).Contents (Elt F))
  (x7 : (⟨S256x5x9, .i32⟩ : BufTy).Contents (Elt F)) (x8 : (⟨S256x5x9, .i1⟩ : BufTy).Contents (Elt F))
  (h0 : (V (Proc.devRef .tc main_arg0)) = x0) (h1 : (V (Proc.devRef .tc main_arg1)) = x1) (h3 : (V (Proc.devRef .tc main_arg3)) = x3) (h7 : (V (Proc.devRef .tc main_arg7)) = x7)
  (hmask : (V (Proc.devRef .tc main_v44)) = Cert.ReferenceIdeal.ReadP.val_main_v58 (F := F) x6 x8) (hzero : (V (Proc.devRef .tc main_c_13)) = Cert.ReferenceIdeal.ReadP.val_main_c_20 (F := F))

set_option maxRecDepth 1000000 in
set_option maxHeartbeats 20000000 in
include h0 h7 hmask hzero in
/-- The clamped sum of the weights is the reference's. -/
theorem stageII_norm : StableHlo.after stageII V (Proc.devRef .tc main_v63) = Cert.ReferenceIdeal.ReadP.val_main_v71 (F := F) x0 x6 x7 x8 := by
  simp only [stageII, hostOps1_3, hostOps1_4, hostOps1_5, List.cons_append, List.nil_append, List.append_nil]
  after_results_simp
  rw [h0, h7, hmask, hzero]
  rw [sigmoid_gather_rows]
  rfl

set_option maxRecDepth 1000000 in
set_option maxHeartbeats 20000000 in
include h0 h7 hmask hzero in
/-- The weights are the reference's. -/
theorem stageII_weights : StableHlo.after stageII V (Proc.devRef .tc main_v61) = Cert.ReferenceIdeal.ReadP.val_main_v69 (F := F) x0 x6 x7 x8 := by
  simp only [stageII, hostOps1_3, hostOps1_4, hostOps1_5, List.cons_append, List.nil_append, List.append_nil]
  after_results_simp
  rw [h0, h7, hmask, hzero]
  rw [sigmoid_gather_rows]
  rfl

set_option maxRecDepth 1000000 in
set_option maxHeartbeats 20000000 in
include h1 h7 hmask hzero in
/-- The gathered predicted boxes are the reference's. -/
theorem stageII_pred : StableHlo.after stageII V (Proc.devRef .tc main_v71) = Cert.ReferenceIdeal.ReadP.val_main_v79 (F := F) x1 x6 x7 x8 := by
  simp only [stageII, hostOps1_3, hostOps1_4, hostOps1_5, List.cons_append, List.nil_append, List.append_nil]
  after_results_simp
  rw [h1, h7, hmask, hzero]
  rfl

set_option maxRecDepth 1000000 in
set_option maxHeartbeats 20000000 in
include h3 hmask in
/-- The masked target boxes are the reference's. -/
theorem stageII_tgt : StableHlo.after stageII V (Proc.devRef .tc main_v73) = Cert.ReferenceIdeal.ReadP.val_main_v81 (F := F) x3 x6 x8 := by
  simp only [stageII, hostOps1_3, hostOps1_4, hostOps1_5, List.cons_append, List.nil_append, List.append_nil]
  after_results_simp
  rw [h3, hmask]
  rfl

end StageII

/-! ## The last stage -/

set_option maxRecDepth 1000000 in
set_option maxHeartbeats 20000000 in
/-- Before the last operation, the first loss' one-element array is the positive focal loss broadcast, -/
theorem stageIII_pos (V : Valuation τ sig (Elt F)) :
    StableHlo.after (hostOps1_6 (F := F)).dropLast V (Proc.devRef .tc main_v130) = broadcastInDim S1 ![] bcast_S_S1 (V (Proc.devRef .tc main_v41)) := by
  simp only [hostOps1_6, List.dropLast_cons₂, List.dropLast_singleton]
  after_results_simp

set_option maxRecDepth 1000000 in
set_option maxHeartbeats 20000000 in
/-- the second the negative focal loss broadcast, -/
theorem stageIII_neg (V : Valuation τ sig (Elt F)) :
    StableHlo.after (hostOps1_6 (F := F)).dropLast V (Proc.devRef .tc main_v131) = broadcastInDim S1 ![] bcast_S_S1 (V (Proc.devRef .tc main_v3)) := by
  simp only [hostOps1_6, List.dropLast_cons₂, List.dropLast_singleton]
  after_results_simp

set_option maxRecDepth 1000000 in
set_option maxHeartbeats 40000000 in
/-- and the third, computed from the weights, their clamped sum, the gathered boxes and the masked targets, is the
    reference's box-regression loss broadcast. -/
theorem stageIII_loc (V : Valuation τ sig (Elt F))
    (x0 : (⟨S349184x80, .f32⟩ : BufTy).Contents (Elt F)) (x1 : (⟨S349184x4, .f32⟩ : BufTy).Contents (Elt F))
    (x3 : (⟨S256x5x9x4, .f32⟩ : BufTy).Contents (Elt F)) (x6 : (⟨S256x5, .i1⟩ : BufTy).Contents (Elt F))
    (x7 : (⟨S256x5x9, .i32⟩ : BufTy).Contents (Elt F)) (x8 : (⟨S256x5x9, .i1⟩ : BufTy).Contents (Elt F))
    (hnorm : (V (Proc.devRef .tc main_v63)) = Cert.ReferenceIdeal.ReadP.val_main_v71 (F := F) x0 x6 x7 x8)
    (hw : (V (Proc.devRef .tc main_v61)) = Cert.ReferenceIdeal.ReadP.val_main_v69 (F := F) x0 x6 x7 x8)
    (hpred : (V (Proc.devRef .tc main_v71)) = Cert.ReferenceIdeal.ReadP.val_main_v79 (F := F) x1 x6 x7 x8)
    (htgt : (V (Proc.devRef .tc main_v73)) = Cert.ReferenceIdeal.ReadP.val_main_v81 (F := F) x3 x6 x8) :
    StableHlo.after (hostOps1_6 (F := F)).dropLast V (Proc.devRef .tc main_v132) = Cert.ReferenceIdeal.ReadP.val_main_v140 (F := F) x0 x1 x3 x6 x7 x8 := by
  simp only [hostOps1_6, List.dropLast_cons₂, List.dropLast_singleton]
  after_results_simp
  rw [hnorm, hw, hpred, htgt]
  rfl

/-! ## The three stages together -/

/-- The result buffer after the host operations: the three losses side by side. -/
theorem tail_value (W : Valuation τ sig (Elt F)) :
    StableHlo.after (tailOps (F := F)).flatten W (Proc.devRef .tc main_v133)
      = concatenate S3 0
          [⟨S1, Cert.ReferenceIdeal.ReadP.val_main_v138 (F := F) (W (Proc.devRef .tc main_arg0)) (W (Proc.devRef .tc main_arg4)) (W (Proc.devRef .tc main_arg5)) (W (Proc.devRef .tc main_arg6))⟩,
           ⟨S1, broadcastInDim S1 ![] bcast_S_S1 (negLoss (F := F) (W (Proc.devRef .tc main_v0)))⟩,
           ⟨S1, Cert.ReferenceIdeal.ReadP.val_main_v140 (F := F) (W (Proc.devRef .tc main_arg0)) (W (Proc.devRef .tc main_arg1)) (W (Proc.devRef .tc main_arg3)) (W (Proc.devRef .tc main_arg6)) (W (Proc.devRef .tc main_arg7)) (W (Proc.devRef .tc main_arg8))⟩]
          concatenates_S1_S1_S1_S3_d0 := by
  rw [tail_stages, after_append', after_append', read_last]
  have kI (b : Ref sig .tc) (hb : b ∈ keptRefs) := after_kept stageI stageI_kept W b hb
  have hm := stageI_mask W
  have hz := stageI_zero W
  rw [stageIII_pos, stageIII_neg,
    stageIII_loc (StableHlo.after stageII (StableHlo.after stageI W)) (W (Proc.devRef .tc main_arg0)) (W (Proc.devRef .tc main_arg1)) (W (Proc.devRef .tc main_arg3)) (W (Proc.devRef .tc main_arg6)) (W (Proc.devRef .tc main_arg7)) (W (Proc.devRef .tc main_arg8))
      (stageII_norm _ _ _ _ _ (kI main_arg0 (by decide)) (kI main_arg7 (by decide)) hm hz)
      (stageII_weights _ _ _ _ _ (kI main_arg0 (by decide)) (kI main_arg7 (by decide)) hm hz)
      (stageII_pred _ _ _ _ _ (kI main_arg1 (by decide)) (kI main_arg7 (by decide)) hm hz)
      (stageII_tgt _ _ _ _ (kI main_arg3 (by decide)) hm),
    stageII_pos, stageII_neg, stageI_pos, stageI_neg]
  rfl

end Cert.KernelIdeal.Hand

end
-- ==== Proof.RefValue.lean ====
/-
  The reference's negative focal loss, read at the ideal instance: its whole-array sum of the per-entry term, scaled by
  0.375 and divided by 256.  The per-entry term is the one of the algebra module; the sum starts from the literal 0.
-/
import proofs.«126601_j68753836474735_1_alg».proof.Proof.RefReadP
import proofs.«126601_j68753836474735_1_alg».proof.Proof.FocalAlgebra
import Idealize.ShloMosaic.PureOps.Ideal.Laws
import Idealize.ShloMosaic.Lib.ValueIdx

noncomputable section

namespace Cert.ReferenceIdeal.RefValue

open Idealize.ShloMosaic Idealize.ShloMosaic.ValueIdx
open Cert.ReferenceIdeal Cert.ReferenceIdeal.Gen Cert.ReferenceIdeal.ReadP

/-- The reference's selected entry is the per-entry term of the logit and the target there. -/
theorem v52_term (x0 x2 : (⟨S349184x80, .f32⟩ : BufTy).Contents (Elt Ideal)) (i : S349184x80.Idx) :
    val_main_v52 (F := Ideal) x0 x2 i = Cert.Focal.rTerm (x0 i) (x2 i) := rfl

/-- The reference's negative focal loss: 0.375 times the sum of the term over every entry, divided by 256. -/
theorem v55_value (x0 x2 : (⟨S349184x80, .f32⟩ : BufTy).Contents (Elt Ideal)) (i : S_.Idx) :
    val_main_v55 (F := Ideal) x0 x2 i
      = Ideal.div (Ideal.ofBits .f32 0x3EC00000#32 * ∑ j : S349184x80.Idx, Cert.Focal.rTerm (x0 j) (x2 j)) (Ideal.ofBits .f32 0x43800000#32) := by
  rw [val_main_v55_apply, val_main_v54_apply, val_main_v53_apply, val_main_cst_17_apply, val_main_cst_18_apply, val_main_cst_19_apply]
  simp only [Ideal.hostDivf_def, Ideal.mulf_def, Ideal.ofBits_def, Cert.Focal.ofBits_zero, zero_add, v52_term]

end Cert.ReferenceIdeal.RefValue

end
-- ==== Proof.FiniteInputs.lean ====
/-
  Finiteness of the heat-map targets, read out of the precondition.

  The precondition is the conjunction of four statements of the form "every entry x of an array satisfies |x| < +∞",
  each printed as a reduction by `and` of the pointwise comparison. At the ideal instance a float is an extended real,
  |x| is `max x (-x)`, and the bit pattern 0x7F800000 denotes +∞. An extended real whose absolute value lies strictly below
  +∞ is neither +∞ nor -∞, hence a real number. Here this is recorded for the third float argument.
-/
import proofs.«126601_j68753836474735_1_alg».proof.Defs
import proofs.«126601_j68753836474735_1_alg».proof.Proof.Gen.Pre_finite_inputs
import Idealize.ShloMosaic.Lib.ReduceAll
import Idealize.ShloMosaic.Lib.ValueIdx

noncomputable section

namespace Cert.KernelIdeal.Finite

open Idealize.ShloMosaic Idealize.SL.Sem

/-- The single-precision pattern 0x7F800000 denotes +∞. -/
theorem ofBits_inf : Ideal.ofBits .f32 0x7F800000#32 = (⊤ : EReal) := by
  simp [Ideal.ofBits, Ideal.ieee]

/-- An extended real whose absolute value `max x (-x)` is strictly below +∞ is a real number. -/
theorem real_of_abs_lt_top (x : EReal) (h : max x (-x) < (⊤ : EReal)) : ∃ r : ℝ, x = ((r : ℝ) : EReal) := by
  induction x using EReal.rec with
  | bot => exact absurd h (by simp)
  | coe r => exact ⟨r, rfl⟩
  | top => exact absurd h (by simp)

/-- The element fact: if the ordered comparison "|x| < 0x7F800000" holds at the ideal instance, then x is a real number. -/
theorem real_of_cmp (x : Ideal .f32)
    (h : FloatOps.cmpf (F := Ideal) .olt (FloatOps.hostAbsf (F := Ideal) x) (FloatOps.ofBits (F := Ideal) .f32 0x7F800000#32) = 1#1) :
    ∃ r : ℝ, x = ((r : ℝ) : EReal) := by
  apply real_of_abs_lt_top
  have h' : BitVec.ofBool (decide (max x (-x) < Ideal.ofBits .f32 0x7F800000#32)) = 1#1 := h
  rw [ofBits_inf] at h'
  by_contra hn
  rw [decide_eq_false hn] at h'
  exact absurd h' (by decide)

/-- Under the precondition every entry of the third float argument is a real number. -/
theorem hms_real [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S349184x80.Idx) :
    ∃ r : ℝ, m ((c.tc : Thread Cert.KernelIdeal.nD Cert.KernelIdeal.τ).loc Cert.KernelIdeal.main_arg2) i = ((r : ℝ) : EReal) := by
  -- the result shape of a reduction over all axes has exactly one index
  haveI : Subsingleton Cert.Pre_finite_inputs.S_.Idx := ⟨fun a b => funext fun d => d.elim0⟩
  -- the precondition's value at that one index is 1
  have h0 := congrFun (h c) ValueIdx.ix0
  dsimp only [Cert.Pre_finite_inputs.fn, Cert.Pre_finite_inputs.fn_part1] at h0
  -- ((all₀ ∧ all₁) ∧ all₂) ∧ all₃ = 1: take the third conjunct
  have h1 := (IntOp.andi_eq_one.1 h0).1
  have h2 := (IntOp.andi_eq_one.1 h1).2
  -- a conjunction over all entries that is 1 is 1 at the entry i
  have h3 := Host.reduce_andi_all _ _ _ _ _ h2 i
  exact real_of_cmp _ h3

end Cert.KernelIdeal.Finite

end
-- ==== Proof.IdealResult.lean ====
/-
  The program's result at the ideal instance, and why it is the reference's.  The host operations after the region read
  the arguments — which the region leaves as it found them — and the region's one-element result, which holds the sum
  of the negative focal term over every heat-map entry.  Two of the three losses are then, operation for operation, the
  reference's functions of the arguments.  The third is 0.375 times that sum divided by 256, as in the reference, whose
  own per-entry term uses real powers with exponent 4 where the kernel squares twice: for a real base these agree, the
  sigmoid is always real, and one minus a target is real because the precondition makes every target finite.
-/
import proofs.«126601_j68753836474735_1_alg».proof.Proof.IdealValue
import proofs.«126601_j68753836474735_1_alg».proof.Proof.IdealTail
import proofs.«126601_j68753836474735_1_alg».proof.Proof.RefValue
import proofs.«126601_j68753836474735_1_alg».proof.Proof.FiniteInputs

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## What the host operations read -/

/-- A buffer that is no window's array holds, when the region ends, what the program started with. -/
theorem W_rest (c : Dev nD) (b : Ref sig .tc) (hb : ∀ w, Pipeline.arrRef spec0 w ≠ b) :
    (Pipeline.withArrays spec0 c (V0 m c) fun w => (dats m 0 c).arrAt w cfg0.N) (Proc.devRef .tc b) = m ((c.tc : Thread nD τ).loc b) :=
  (Pipeline.withArrays_of_ne spec0 c (V0 m c) _ b hb).trans rfl

/-- The logits, a staged input, likewise. -/
theorem W_logits (c : Dev nD) :
    (Pipeline.withArrays spec0 c (V0 m c) fun w => (dats m 0 c).arrAt w cfg0.N) (Proc.devRef .tc main_arg0) = m ((c.tc : Thread nD τ).loc main_arg0) :=
  (Pipeline.withArrays_arr spec0 launch0.win.arr_inj c (V0 m c) _ 0).trans
    (((dats m 0 c).arrAt_in 0 rfl _).trans ((A_eq m c 0).trans rfl))

/-- The region's result array holds the accumulator after the last point. -/
theorem W_out (c : Dev nD) :
    (Pipeline.withArrays spec0 c (V0 m c) fun w => (dats m 0 c).arrAt w cfg0.N) (Proc.devRef .tc main_v0) = regionOut m c :=
  (Pipeline.withArrays_arr spec0 launch0.win.arr_inj c (V0 m c) _ 2).trans (final_out m c)

/-! ## The result -/

/-- The three losses the program returns. -/
def kernelOut (c : Dev nD) : Buf (Elt Ideal) ((c.tc : Thread nD τ).loc main_v133) :=
  concatenate S3 0
    [⟨S1, Cert.ReferenceIdeal.ReadP.val_main_v138 (F := Ideal) (m ((c.tc : Thread nD τ).loc main_arg0)) (m ((c.tc : Thread nD τ).loc main_arg4)) (m ((c.tc : Thread nD τ).loc main_arg5)) (m ((c.tc : Thread nD τ).loc main_arg6))⟩,
     ⟨S1, broadcastInDim S1 ![] bcast_S_S1 (negLoss (F := Ideal) (regionOut m c))⟩,
     ⟨S1, Cert.ReferenceIdeal.ReadP.val_main_v140 (F := Ideal) (m ((c.tc : Thread nD τ).loc main_arg0)) (m ((c.tc : Thread nD τ).loc main_arg1)) (m ((c.tc : Thread nD τ).loc main_arg3)) (m ((c.tc : Thread nD τ).loc main_arg6)) (m ((c.tc : Thread nD τ).loc main_arg7)) (m ((c.tc : Thread nD τ).loc main_arg8))⟩]
    concatenates_S1_S1_S1_S3_d0

/-- After the host operations the result buffer holds them. -/
theorem tail_out (c : Dev nD) :
    Pipeline.afterTail₀ cfgs (dats m) 0 (V0 m) (tailOps (F := Ideal)) c main_v133 = kernelOut m c := by
  unfold Pipeline.afterTail₀
  rw [tail_value]
  unfold kernelOut
  rw [W_logits m c, W_out m c, W_rest m c main_arg1 (by decide), W_rest m c main_arg3 (by decide), W_rest m c main_arg4 (by decide),
    W_rest m c main_arg5 (by decide), W_rest m c main_arg6 (by decide), W_rest m c main_arg7 (by decide), W_rest m c main_arg8 (by decide)]

/-- Every weakly fair execution terminates with the result buffer at the three losses and the arguments unchanged. -/
theorem run_value : θ_run defs (onTc (τ := τ) (main (F := Ideal))) ⟨m, fun _ => 0, ρ⟩ (fun r => ∀ c : Dev nD,
      r.2.mem ((c.tc : Thread nD τ).loc main_v133) = kernelOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
      ⟨((h c).2 main_v133 (Pipeline.mem_restRefs_of main_v133 rfl (by decide))).trans (tail_out m c),
       args_kept m (dats m) (A_eq m) r h c⟩)
    (run_main (F := Ideal) m ρ)

/-! ## The bridge -/

/-- The kernel's negative focal loss from a one-element array: 0.375 times its entry, divided by 256. -/
theorem negLoss_value (s : (⟨S1x1, .f32⟩ : BufTy).Contents (Elt Ideal)) (i : S_.Idx) :
    negLoss (F := Ideal) s i
      = Ideal.div (Ideal.ofBits .f32 0x3EC00000#32 * s (ix2 (0 : Fin 1) (0 : Fin 1))) (Ideal.ofBits .f32 0x43800000#32) := by
  show Ideal.div (Ideal.ofBits .f32 0x3EC00000#32 * s (Shape.reshapeEquiv shapeCasts_S1x1_S_ i)) (Ideal.ofBits .f32 0x43800000#32) = _
  rw [idx11 (Shape.reshapeEquiv shapeCasts_S1x1_S_ i)]

/-- Under the precondition the kernel's negative focal loss is the reference's. -/
theorem negLoss_eq (hpre : Cert.Pre_KernelIdeal m) (c : Dev nD) :
    negLoss (F := Ideal) (regionOut m c) = Cert.ReferenceIdeal.ReadP.val_main_v55 (F := Ideal) (m ((c.tc : Thread nD τ).loc main_arg0)) (m ((c.tc : Thread nD τ).loc main_arg2)) := by
  funext i
  rw [negLoss_value, Cert.ReferenceIdeal.RefValue.v55_value]
  show Ideal.div (_ * acc m c 61 last_lt (ix2 (0 : Fin 1) (0 : Fin 1))) _ = _
  rw [acc_last]
  refine congrArg (fun S => Ideal.div (Ideal.ofBits .f32 0x3EC00000#32 * S) (Ideal.ofBits .f32 0x43800000#32)) ?_
  refine Finset.sum_congr rfl fun j _ => ?_
  obtain ⟨r, hr⟩ := Cert.KernelIdeal.Finite.hms_real m hpre c j
  show Cert.Focal.kTerm (logits m c j) (m ((c.tc : Thread nD τ).loc main_arg2) j) = Cert.Focal.rTerm _ (m ((c.tc : Thread nD τ).loc main_arg2) j)
  rw [hr]
  exact Cert.Focal.term_eq _ r

/-- So the kernel's result is the reference's result of the same arguments. -/
theorem kernelOut_eq (hpre : Cert.Pre_KernelIdeal m) (c : Dev nD) :
    kernelOut m c = Cert.ReferenceIdeal.ReadP.val_main_v141 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold kernelOut Cert.ReferenceIdeal.ReadP.val_main_v141 Cert.ReferenceIdeal.ReadP.val_main_v139
  rw [negLoss_eq m hpre c]

end Cert.KernelIdeal.Hand

end
-- ==== Proof.lean ====
/-
  The proof of the claim: the focal-loss kernel, its idealization and the jnp reference.

  The three programs run to the end without a fault and leave their nine arguments unchanged: for the two kernel programs
  this is the run of the region — 62 grid points accumulating a sum into a scratch, the last one copying it out — followed
  by the 175 host operations that produce the three losses; for the reference it is its run read back operation by
  operation.  The idealization rewrote nothing, so it preserves the kernel trivially.  At the ideal instance the two
  programs return equal losses: two of them are computed by the same operations (a gather of rows commutes with the
  pointwise sigmoid), and the negative focal loss is a sum of one per-entry term over all heat-map entries, which the
  kernel computes block by block with fourth powers by squaring twice and the reference in one sum with real powers of
  exponent 4 — equal because the sigmoid is a real number and every target is finite by the precondition.
-/
import proofs.«126601_j68753836474735_1_alg».proof.Defs
import proofs.«126601_j68753836474735_1_alg».proof.Proof.BitsFrame
import proofs.«126601_j68753836474735_1_alg».proof.Proof.IdealFrame
import proofs.«126601_j68753836474735_1_alg».proof.Proof.IdealResult
import proofs.«126601_j68753836474735_1_alg».proof.Proof.RefRunP
import proofs.«126601_j68753836474735_1_alg».proof.Proof.RefReadP
import proofs.«126601_j68753836474735_1_alg».proof.Proof.Gen.Kernel
import proofs.«126601_j68753836474735_1_alg».proof.Proof.Gen.KernelIdeal
import proofs.«126601_j68753836474735_1_alg».proof.Proof.Gen.ReferenceIdeal
import proofs.«126601_j68753836474735_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both idealized programs end with the same three losses. -/
theorem algebraic : Cert.algebraic_KernelIdeal_ReferenceIdeal := by
  intro m ρ m' ρ' hpre hagree
  refine ⟨fun c => Cert.KernelIdeal.Hand.kernelOut m c, Cert.KernelIdeal.Hand.run_value m ρ, ?_⟩
  refine (θ_run Cert.ReferenceIdeal.defs _ _).mono (fun _ h c => ⟨?_, (h c).2⟩)
    (Cert.ReferenceIdeal.ValueP.run (F := Ideal) m' ρ')
  rw [(h c).1, Cert.ReferenceIdeal.ReadP.val_main_v141_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
  exact (Cert.KernelIdeal.Hand.kernelOut_eq m hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
